-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192 : S_.BroadcastsInDim S8192 (![] : Fin 0 → Fin S8192.rank)
  reducesTo_S8192_S_d0 : S8192.ReducesTo [0] S_
  reducesTo_S_S_d : S_.ReducesTo [] S_

variable [Facts]

def fn_part1 {F : FTy → Type} [FloatOps F] (main_arg4 : FVec F S_ .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S_ .f32 := Host.absf main_arg4
  let main_cst_6 : FVec F S_ .f32 := constant S_ .f32 0x7F800000#32
  let main_v19 : IVec S_ 1 := cmpf .olt main_v18 main_cst_6
  let main_c_7 : IVec S_ 1 := constantI S_ 1 1#1
  let main_v20 : IVec S_ 1 := (fun x v => Host.reduce IntOp.andi x v reducesTo_S_S_d h_S_) main_v19 main_c_7
  let main_v21 : IVec S_ 1 := andi main_v17 main_v20
  main_v21

def fn {F : FTy → Type} [FloatOps F] (main_arg0 : FVec F S8192x256 .f32) (main_arg1 : FVec F S8192x256 .f32) (main_arg2 : FVec F S8192 .f32) (main_arg3 : FVec F S_ .f32) (main_arg4 : FVec F S_ .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg4 main_v13 main_v15 main_c_5
-- ==== Kernel.lean ====
abbrev S8192x256 : Shape := ⟨2, ![8192, 256]⟩
abbrev S8192 : Shape := ⟨1, ![8192]⟩
abbrev S_ : Shape := ⟨0, ![]⟩
abbrev S1x8192 : Shape := ⟨2, ![1, 8192]⟩
abbrev S1x1 : Shape := ⟨2, ![1, 1]⟩
abbrev S2048x256 : Shape := ⟨2, ![2048, 256]⟩
abbrev S512x256 : Shape := ⟨2, ![512, 256]⟩
abbrev S1x2048 : Shape := ⟨2, ![1, 2048]⟩
abbrev S256x512 : Shape := ⟨2, ![256, 512]⟩
abbrev S2048x512 : Shape := ⟨2, ![2048, 512]⟩
abbrev S2048x1 : Shape := ⟨2, ![2048, 1]⟩
abbrev S1x512 : Shape := ⟨2, ![1, 512]⟩
abbrev S2048 : Shape := ⟨1, ![2048]⟩
abbrev S1 : Shape := ⟨1, ![1]⟩

abbrev nBuf : Space → Nat
  | .hbm => 10
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192, .f32⟩
  | .hbm, ⟨3, _⟩ => ⟨S_, .f32⟩
  | .hbm, ⟨4, _⟩ => ⟨S_, .f32⟩
  | .hbm, ⟨5, _⟩ => ⟨S1x8192, .f32⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S1x2048, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg0 : BitVec 32 := BitVec.ofNat 32 (i 0).val
  let c3_i32 : BitVec 32 := 3#32
  let v71 : BitVec 1 := Scalar.cmpi .eq arg0 c3_i32
  let arg1 : BitVec 32 := BitVec.ofNat 32 (i 1).val
  let c15_i32 : BitVec 32 := 15#32
  let v72 : BitVec 1 := Scalar.cmpi .eq arg1 c15_i32
  let v73 : BitVec 1 := Scalar.andi v71 v72
  let v74 : BitVec 32 := Scalar.extui v73
  let c0_i32_25 : BitVec 32 := 0#32
  let v75 : BitVec 1 := Scalar.cmpi .ne v74 c0_i32_25
  v75

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  shapeCasts_S8192_S1x8192 : S8192.ShapeCasts S1x8192
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  transposes_S512x256_p1_0_S256x512 : S512x256.Transposes [1, 0] S256x512
  inpos_S1x1_p0_0 : ∀ a, (![0, 0] : Fin 2 → Nat) a < S1x1.size a
  iota_S2048x1_d0_w32 : S2048x1.Iotas .tc 32 [0]
  iota_S1x512_d1_w32 : S1x512.Iotas .tc 32 [1]
  broadcasts_S2048x1_S2048x512 : S2048x1.Broadcasts S2048x512
  broadcasts_S1x512_S2048x512 : S1x512.Broadcasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  shapeCasts_S1x2048_S2048x1 : S1x2048.ShapeCasts S2048x1
  shapeCasts_S2048x1_S2048x1 : S2048x1.ShapeCasts S2048x1
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S_ : S1x1.ShapeCasts S_
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S256x8192 : Shape := ⟨2, ![256, 8192]⟩
abbrev S8192x8192 : Shape := ⟨2, ![8192, 8192]⟩
abbrev S8192x1 : Shape := ⟨2, ![8192, 1]⟩
abbrev S8192x2 : Shape := ⟨2, ![8192, 2]⟩

abbrev nBuf : Space → Nat
  | .hbm => 60
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192, .f32⟩
  | .hbm, ⟨3, _⟩ => ⟨S_, .f32⟩
  | .hbm, ⟨4, _⟩ => ⟨S_, .f32⟩
  | .hbm, ⟨5, _⟩ => ⟨S256x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192, .i32⟩
  | .hbm, ⟨12, _⟩ => ⟨S_, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S8192x1, .i32⟩
  | .hbm, ⟨36, _⟩ => ⟨S8192x2, .i32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S8192x8192, .i1⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_call0_cst : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_v1 : Ref sig .tc := ⟨.hbm, 53, rfl⟩
abbrev main_v27 : Ref sig .tc := ⟨.hbm, 54, rfl⟩
abbrev main_cst_5 : Ref sig .tc := ⟨.hbm, 55, rfl⟩
abbrev main_v28 : Ref sig .tc := ⟨.hbm, 56, rfl⟩
abbrev main_cst_6 : Ref sig .tc := ⟨.hbm, 57, rfl⟩
abbrev main_v29 : Ref sig .tc := ⟨.hbm, 58, rfl⟩
abbrev main_v30 : Ref sig .tc := ⟨.hbm, 59, rfl⟩

abbrev nD : Nat := 1
abbrev τ : Topo := Topo.v7x

variable {F : FTy → Type} [FloatOps F]

class Facts₀ : Prop where
  transposes_S8192x256_S256x8192_1_0 : S8192x256.Transposes [1, 0] S256x8192
  bcast_S_S8192x8192 : S_.BroadcastsInDim S8192x8192 (![] : Fin 0 → Fin S8192x8192.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S_d0_1 : S8192x8192.ReducesTo [0, 1] S_
  h_S_ : 0 < S_.numel
  dot_S8192x256_S256x8192_S8192x8192_1_0_0_1_n_n_wf : DotDims.WF S8192x256 S256x8192 S8192x8192 [1] [0] [0] [1] [] []
  scatter_S8192x8192_S8192x2_S8192_n_01_01_1_wf : ScatterDims.WF S8192x8192 S8192x2 S8192 [] [0, 1] [0, 1] 1

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

class Facts : Prop extends Facts₀ where

variable [Facts]
-- ==== Proof.Pieces.lean ====
/-
  What one grid point leaves behind, as values of the body's arithmetic.

  The body adds the tile's share to a one-element accumulator that lives across the 64 grid points: at the first
  point it first stores zero there, at the last point it also stores the accumulator times 2⁻²⁶ into the output block.
  Each of the three control cases ends with covering stores, so what the accumulator (and, at the last point, the
  output block) holds afterwards is the stored payload of the values loaded: the accumulating sum of the input blocks
  and of the accumulator's previous contents (the zero just stored, at the first point).
-/
import proofs.«149174_j90159953478072_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-block access. -/
theorem hz : (![0, 0] : Fin 2 → Nat) = fun _ => 0 := funext fun a => by fin_cases a <;> rfl

/-- A middle point: the accumulator ends at the accumulating payload of its previous contents. -/
theorem sout_B (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 : Vec F S2048x256 .f32) (x1 : Vec F S512x256 .f32) (x2 : Vec F S1x2048 .f32) (x3 : Vec F S1x1 .f32) (x4 : Vec F S1x1 .f32) (xs0 : Vec F S1x1 .f32) :
    sout0_B_0 c i arg2 harg2 arg3 harg3 arg4 harg4 arg5 harg5 arg6 harg6 arg7 harg7 arg8 harg8 hc0 hc1 x0 x1 x2 x3 x4 xs0
      = k0_pay1 (k0_pay4 x0 x1 x3 x4) (k0_pay5 i) (Scalar.ofBits .f32 0xBF800000#32) (k0_pay6 x2) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz]
  simp only [View.readAt_eq_ld, harg2.read_unread, harg3.read_unread, harg4.read_unread, harg5.read_unread, harg6.read_unread, harg8.read_unread,
    View.ld_unit_zero (S := S2048x256) hz, View.ld_unit_zero (S := S512x256) hz, View.ld_unit_zero (S := S1x2048) hz, View.ld_unit_zero (S := S1x1) hz]

/-- The last point leaves the accumulator in the same way, -/
theorem sout_C (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S2048x256 .f32) (x1 : Vec F S512x256 .f32) (x2 : Vec F S1x2048 .f32) (x3 : Vec F S1x1 .f32) (x4 : Vec F S1x1 .f32) (xs0 : Vec F S1x1 .f32) :
    sout0_C_0 c i arg2 harg2 arg3 harg3 arg4 harg4 arg5 harg5 arg6 harg6 arg7 harg7 arg8 harg8 hc0 hc1 x0 x1 x2 x3 x4 xs0
      = k0_pay1 (k0_pay4 x0 x1 x3 x4) (k0_pay5 i) (Scalar.ofBits .f32 0xBF800000#32) (k0_pay6 x2) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread, harg8.read_unread,
    View.ld_unit_zero (S := S2048x256) hz, View.ld_unit_zero (S := S512x256) hz, View.ld_unit_zero (S := S1x2048) hz, View.ld_unit_zero (S := S1x1) hz]

/-- and the output block at the scaling payload of that accumulator (the load after the store reads what was stored). -/
theorem out_C (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S2048x256 .f32) (x1 : Vec F S512x256 .f32) (x2 : Vec F S1x2048 .f32) (x3 : Vec F S1x1 .f32) (x4 : Vec F S1x1 .f32) (xs0 : Vec F S1x1 .f32) :
    out0_C_5 c i arg2 harg2 arg3 harg3 arg4 harg4 arg5 harg5 arg6 harg6 arg7 harg7 arg8 harg8 hc0 hc1 x0 x1 x2 x3 x4 xs0
      = k0_pay2 (k0_pay1 (k0_pay4 x0 x1 x3 x4) (k0_pay5 i) (Scalar.ofBits .f32 0xBF800000#32) (k0_pay6 x2) xs0) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz, View.readCov_unit_zero (S := S1x1) _ hz]
  simp only [View.readAt_eq_ld, harg2.read_unread, harg3.read_unread, harg4.read_unread, harg5.read_unread, harg6.read_unread, harg8.read_unread,
    View.ld_unit_zero (S := S2048x256) hz, View.ld_unit_zero (S := S512x256) hz, View.ld_unit_zero (S := S1x2048) hz, View.ld_unit_zero (S := S1x1) hz]

/-- The first point: the accumulator is first set to the zero payload, then accumulated into. -/
theorem sout_A (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 : Vec F S2048x256 .f32) (x1 : Vec F S512x256 .f32) (x2 : Vec F S1x2048 .f32) (x3 : Vec F S1x1 .f32) (x4 : Vec F S1x1 .f32) :
    sout0_A_0 c i arg2 harg2 arg3 harg3 arg4 harg4 arg5 harg5 arg6 harg6 arg7 harg7 arg8 harg8 hc0 hc1 x0 x1 x2 x3 x4
      = k0_pay1 (k0_pay4 x0 x1 x3 x4) (k0_pay5 i) (Scalar.ofBits .f32 0xBF800000#32) (k0_pay6 x2) (k0_pay3 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg8.read_unread,
    View.ld_unit_zero (S := S2048x256) hz, View.ld_unit_zero (S := S512x256) hz, View.ld_unit_zero (S := S1x2048) hz, View.ld_unit_zero (S := S1x1) hz]

end Cert.KernelIdeal.Pieces
end
-- ==== Proof.LibProductAt.lean ====
/-
  A matrix product read at an index.

  Dimension numbers of a product [A, K] × [K, B] → [A, B] that contract the left factor's axis 1 with the right factor's
  axis 0, with no batch axis, index the two factors at the result index (p, q) and the contraction index k by (p, k) and
  (k, q). So any sum over the contraction index — a product into a zero accumulator, a host dot_general — is the sum
  over k < K of l (p, k) · r (k, q), and in particular reads only row p of the left factor and column q of the right one.
  General: nothing here depends on a particular program. An instance supplies the two kept coordinates (`hl0`, `hr1`:
  each is `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.ProductAt

open Idealize.ShloMosaic

/-- The index (p, q) of a two-axis shape, from the two numbers and their bounds. -/
abbrev at2 {n0 n1 : Nat} (p : Nat) (hp : p < n0) (q : Nat) (hq : q < n1) : (⟨2, ![n0, n1]⟩ : Shape).Idx := fun a => match a with
  | ⟨0, _⟩ => ⟨p, hp⟩
  | ⟨1, _⟩ => ⟨q, hq⟩

/-- Equal coordinates give the same index. -/
theorem at2_congr {n0 n1 : Nat} {p p' q q' : Nat} (hp : p < n0) (hp' : p' < n0) (hq : q < n1) (hq' : q' < n1)
    (ep : p = p') (eq : q = q') : (at2 p hp q hq : (⟨2, ![n0, n1]⟩ : Shape).Idx) = at2 p' hp' q' hq' := by
  subst ep; subst eq; rfl

/-- Every index of a two-axis shape is the index of its two coordinates. -/
theorem eq_at2 {n0 n1 : Nat} (j : (⟨2, ![n0, n1]⟩ : Shape).Idx) :
    j = at2 (j 0).val (ValueIdx.idx2_lt0 j) (j 1).val (ValueIdx.idx2_lt1 j) := by
  funext a; match a with | ⟨0, _⟩ => rfl | ⟨1, _⟩ => rfl

/-- THE SUM, RE-INDEXED. Dimension numbers that contract the left factor's axis 1 with the right factor's axis 0 and
    keep the left factor's axis 0 and the right factor's axis 1 as the result's rows and columns (`hl0`, `hr1`): the sum
    over the contraction index is the sum over k < K of l (p, k) · r (k, q) at the result index (p, q). -/
theorem product_sum_eq {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (j : (⟨2, ![A, B]⟩ : Shape).Idx) :
    ∑ q : d.contr.Idx, l (d.lhsIdx j q) * r (d.rhsIdx j q)
      = ∑ k : Fin K, l (at2 (j 0).val (ValueIdx.idx2_lt0 j) k.val k.isLt) * r (at2 k.val k.isLt (j 1).val (ValueIdx.idx2_lt1 j)) := by
  rw [← Equiv.sum_comp (ValueIdx.contrEquiv1 d K hr hs).symm]
  refine Finset.sum_congr rfl fun k _ => ?_
  have hk := ValueIdx.contrEquiv1_symm_val d K hr hs k
  have el : d.lhsIdx j ((ValueIdx.contrEquiv1 d K hr hs).symm k) = at2 (j 0).val (ValueIdx.idx2_lt0 j) k.val k.isLt :=
    funext fun a => Fin.ext (by
      match a with
      | ⟨0, _⟩ => exact hl0 j _
      | ⟨1, _⟩ => exact (d.lhsIdx_val_of_single hlc j _).trans hk)
  have er : d.rhsIdx j ((ValueIdx.contrEquiv1 d K hr hs).symm k) = at2 k.val k.isLt (j 1).val (ValueIdx.idx2_lt1 j) :=
    funext fun a => Fin.ext (by
      match a with
      | ⟨0, _⟩ => exact (d.rhsIdx_val_of_single hrc j _).trans hk
      | ⟨1, _⟩ => exact hr1 j _)
  rw [el, er]

end Cert.ProductAt

end
-- ==== Proof.Blocks.lean ====
/-
  The input blocks of a grid point, read in the argument arrays.

  Grid point t of the 4 × 16 grid has coordinates (t / 16, t % 16). The image-feature window's block at t is the 2048
  rows from (t / 16) · 2048 of the first argument; the text-feature window's block is the 512 rows from (t % 16) · 512
  of the second: element (r, k) of a block sits at row (block index) · (block rows) + r, column k of its array.
-/
import proofs.«149174_j90159953478072_1_alg».proof.Proof.Gen.KernelIdeal.Frame
import proofs.«149174_j90159953478072_1_alg».proof.Proof.LibProductAt
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.ProductAt

variable {F : FTy → Type} [FloatOps F]
variable (m : (ℓ : Loc nD τ sig) → Buf (Elt F) ℓ)

/-- The windows' block indices at each grid point, decided over the 64 points. -/
theorem idx_facts : ∀ t : Fin cfg0.N, win0_0.index t 0 = t.val / 16 ∧ win0_0.index t 1 = 0 ∧ win0_1.index t 0 = t.val % 16 ∧ win0_1.index t 1 = 0
    ∧ win0_2.index t 0 = 0 ∧ win0_2.index t 1 = t.val / 16 ∧ win0_3.index t 0 = 0 ∧ win0_3.index t 1 = 0 ∧ win0_4.index t 0 = 0 ∧ win0_4.index t 1 = 0
    ∧ win0_5.index t 0 = 0 ∧ win0_5.index t 1 = 0 :=
  (by decide +kernel : ∀ t : Fin grid0.N, win0_0.index t 0 = t.val / 16 ∧ win0_0.index t 1 = 0 ∧ win0_1.index t 0 = t.val % 16 ∧ win0_1.index t 1 = 0
    ∧ win0_2.index t 0 = 0 ∧ win0_2.index t 1 = t.val / 16 ∧ win0_3.index t 0 = 0 ∧ win0_3.index t 1 = 0 ∧ win0_4.index t 0 = 0 ∧ win0_4.index t 1 = 0
    ∧ win0_5.index t 0 = 0 ∧ win0_5.index t 1 = 0)

/-- The grid coordinates of point t are (t / 16, t % 16). -/
theorem coords_facts : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- The image-feature block at point t, element (r, k): row (t / 16) · 2048 + r, column k of the first argument. -/
theorem iblk0 (c : Dev nD) (t : Fin cfg0.N) (ht : t.val < 64) (r : Fin 2048) (k : Fin 256) :
    (iblk m c 0 t : Vec F S2048x256 .f32) (ix2 r k)
      = m ((c : Thread nD τ).loc main_arg0) (at2 (t.val / 16 * 2048 + r.val) (by omega) k.val k.isLt) := by
  unfold iblk
  rw [View.read_apply]
  show V m c main_arg0 _ = _
  rw [V_main_arg0]
  refine congrArg _ (funext fun a => Fin.ext ?_)
  match a with
  | ⟨0, _⟩ => show win0_0.index t 0 * 2048 + 1 * r.val = t.val / 16 * 2048 + r.val
              rw [(idx_facts t).1]; omega
  | ⟨1, _⟩ => show win0_0.index t 1 * 256 + 1 * k.val = k.val
              rw [(idx_facts t).2.1]; omega

/-- The text-feature block at point t, element (q, k): row (t % 16) · 512 + q, column k of the second argument. -/
theorem iblk1 (c : Dev nD) (t : Fin cfg0.N) (ht : t.val < 64) (q : Fin 512) (k : Fin 256) :
    (iblk m c 1 t : Vec F S512x256 .f32) (ix2 q k)
      = m ((c : Thread nD τ).loc main_arg1) (at2 (t.val % 16 * 512 + q.val) (by omega) k.val k.isLt) := by
  unfold iblk
  rw [View.read_apply]
  show V m c main_arg1 _ = _
  rw [V_main_arg1]
  refine congrArg _ (funext fun a => Fin.ext ?_)
  match a with
  | ⟨0, _⟩ => show win0_1.index t 0 * 512 + 1 * q.val = t.val % 16 * 512 + q.val
              rw [(idx_facts t).2.2.1]; omega
  | ⟨1, _⟩ => show win0_1.index t 1 * 256 + 1 * k.val = k.val
              rw [(idx_facts t).2.2.2.1]; omega

end Cert.KernelIdeal.Blocks
end
-- ==== Proof.BlocksHost.lean ====
/-
  The three small input blocks of a grid point, and the result's last move.

  The labels and the two scalars reach the grid through a change of shape on the host: the labels [8192] become one row
  [1, 8192], each scalar becomes a [1, 1] array. A change of shape keeps every element at its row-major position, so
  element (0, r) of the label window's block at point t — the 2048 columns from (t / 16) · 2048 of that row — is label
  (t / 16) · 2048 + r, and the only element of each [1, 1] block is the scalar. After the grid the [1, 1] result is
  changed back into a scalar the same way.
-/
import proofs.«149174_j90159953478072_1_alg».proof.Proof.Blocks
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.BlocksHost

open Cert.KernelIdeal Cert.KernelIdeal.Gen Idealize.ShloMosaic.ValueIdx Cert.ProductAt Cert.KernelIdeal.Blocks

variable {F : FTy → Type} [FloatOps F]
variable (m : (ℓ : Loc nD τ sig) → Buf (Elt F) ℓ)

/-! ## Changes of shape between a scalar and a [1, 1] array -/

/-- A scalar cast to [1, 1] reads, at its one index, the scalar. -/
theorem shapeCast_scalar_11_apply {α : Type} (x : (⟨0, ![]⟩ : Shape).Idx → α)
    (h : (⟨0, ![]⟩ : Shape).ShapeCasts ⟨2, ![1, 1]⟩) (u v : Fin 1) : shapeCast ⟨2, ![1, 1]⟩ x h (ix2 u v) = x ix0 :=
  shapeCast_apply x h _ _ (by
    have hu : u.val = 0 := by omega
    have hv : v.val = 0 := by omega
    rw [Shape.rowMajor_val_two]
    show (Shape.rowMajorPi _ _).val = u.val * 1 + v.val
    rw [Shape.rowMajorPi_zero, hu, hv])

/-- A [1, 1] array cast to a scalar reads its one element. -/
theorem shapeCast_11_scalar_apply {α : Type} (x : (⟨2, ![1, 1]⟩ : Shape).Idx → α)
    (h : (⟨2, ![1, 1]⟩ : Shape).ShapeCasts ⟨0, ![]⟩) : shapeCast ⟨0, ![]⟩ x h ix0 = x (ix2 (0 : Fin 1) (0 : Fin 1)) :=
  shapeCast_apply x h _ _ (by
    rw [Shape.rowMajor_val_two]
    show (0 : Nat) * 1 + 0 = (Shape.rowMajorPi _ _).val
    rw [Shape.rowMajorPi_zero])

/-! ## What the grid finds in the three reshaped arrays -/

/-- The label row is the labels, cast from [8192] to [1, 8192]. -/
theorem V_main_v0 (c : Dev nD) : (V m c main_v0 : S1x8192.Idx → Elt F .f32)
    = shapeCast S1x8192 (m ((c : Thread nD τ).loc main_arg2)) shapeCasts_S8192_S1x8192 := by
  show StableHlo.after hostOps0 (fun b => m (c, b)) (Proc.devRef .tc main_v0) = _
  after_results
  rfl

/-- The [1, 1] scale is the scalar scale, cast. -/
theorem V_main_v1 (c : Dev nD) : (V m c main_v1 : S1x1.Idx → Elt F .f32)
    = shapeCast S1x1 (m ((c : Thread nD τ).loc main_arg3)) shapeCasts_S_S1x1 := by
  show StableHlo.after hostOps0 (fun b => m (c, b)) (Proc.devRef .tc main_v1) = _
  after_results
  rfl

/-- The [1, 1] bias is the scalar bias, cast. -/
theorem V_main_v2 (c : Dev nD) : (V m c main_v2 : S1x1.Idx → Elt F .f32)
    = shapeCast S1x1 (m ((c : Thread nD τ).loc main_arg4)) shapeCasts_S_S1x1 := by
  show StableHlo.after hostOps0 (fun b => m (c, b)) (Proc.devRef .tc main_v2) = _
  after_results
  rfl

/-! ## The three blocks -/

/-- The label block at point t, element (0, r): label (t / 16) · 2048 + r. -/
theorem iblk2 (c : Dev nD) (t : Fin cfg0.N) (ht : t.val < 64) (r : Fin 2048) :
    (iblk m c 2 t : Vec F S1x2048 .f32) (ix2 (0 : Fin 1) r)
      = m ((c : Thread nD τ).loc main_arg2) (ix1 ⟨t.val / 16 * 2048 + r.val, by omega⟩) := by
  unfold iblk
  rw [View.read_apply]
  show V m c main_v0 _ = _
  rw [V_main_v0]
  refine Eq.trans ?_ (shapeCast_a_1a_apply (m ((c : Thread nD τ).loc main_arg2)) shapeCasts_S8192_S1x8192 (0 : Fin 1)
    (⟨t.val / 16 * 2048 + r.val, by omega⟩ : Fin 8192))
  refine congrArg _ (funext fun a => Fin.ext ?_)
  match a with
  | ⟨0, _⟩ => show win0_2.index t 0 * 1 + 1 * 0 = 0
              rw [(idx_facts t).2.2.2.2.1]
  | ⟨1, _⟩ => show win0_2.index t 1 * 2048 + 1 * r.val = t.val / 16 * 2048 + r.val
              rw [(idx_facts t).2.2.2.2.2.1]; omega

/-- The scale block at any point: its one element is the scale. -/
theorem iblk3 (c : Dev nD) (t : Fin cfg0.N) :
    (iblk m c 3 t : Vec F S1x1 .f32) (ix2 (0 : Fin 1) (0 : Fin 1)) = m ((c : Thread nD τ).loc main_arg3) ix0 := by
  unfold iblk
  rw [View.read_apply]
  show V m c main_v1 _ = _
  rw [V_main_v1]
  refine Eq.trans ?_ (shapeCast_scalar_11_apply (m ((c : Thread nD τ).loc main_arg3)) shapeCasts_S_S1x1 (0 : Fin 1) (0 : Fin 1))
  refine congrArg _ (funext fun a => Fin.ext ?_)
  match a with
  | ⟨0, _⟩ => show win0_3.index t 0 * 1 + 1 * 0 = 0
              rw [(idx_facts t).2.2.2.2.2.2.1]
  | ⟨1, _⟩ => show win0_3.index t 1 * 1 + 1 * 0 = 0
              rw [(idx_facts t).2.2.2.2.2.2.2.1]

/-- The bias block at any point: its one element is the bias. -/
theorem iblk4 (c : Dev nD) (t : Fin cfg0.N) :
    (iblk m c 4 t : Vec F S1x1 .f32) (ix2 (0 : Fin 1) (0 : Fin 1)) = m ((c : Thread nD τ).loc main_arg4) ix0 := by
  unfold iblk
  rw [View.read_apply]
  show V m c main_v2 _ = _
  rw [V_main_v2]
  refine Eq.trans ?_ (shapeCast_scalar_11_apply (m ((c : Thread nD τ).loc main_arg4)) shapeCasts_S_S1x1 (0 : Fin 1) (0 : Fin 1))
  refine congrArg _ (funext fun a => Fin.ext ?_)
  match a with
  | ⟨0, _⟩ => show win0_4.index t 0 * 1 + 1 * 0 = 0
              rw [(idx_facts t).2.2.2.2.2.2.2.2.1]
  | ⟨1, _⟩ => show win0_4.index t 1 * 1 + 1 * 0 = 0
              rw [(idx_facts t).2.2.2.2.2.2.2.2.2.1]

/-! ## The host line after the grid -/

/-- From any contents W, the line after the grid leaves in the scalar result the one element of the [1, 1] result. -/
theorem tail_v4 (W : Valuation τ sig (Elt F)) :
    (StableHlo.after (hostOps1 (F := F)) W (Proc.devRef .tc main_v4) : S_.Idx → Elt F .f32) ix0
      = (W (Proc.devRef .tc main_v3) : S1x1.Idx → Elt F .f32) (ix2 (0 : Fin 1) (0 : Fin 1)) := by
  have e : (StableHlo.after (hostOps1 (F := F)) W (Proc.devRef .tc main_v4) : S_.Idx → Elt F .f32)
      = shapeCast S_ (W (Proc.devRef .tc main_v3)) shapeCasts_S1x1_S_ := by
    after_results
    rfl
  rw [e]
  exact shapeCast_11_scalar_apply _ _

end Cert.KernelIdeal.BlocksHost
end
-- ==== Proof.Spec.lean ====
/-
  The common value of the two programs, as one function of the five argument arrays.

  For image features A and text features B (both [8192, 256]), labels lab ([8192]), a scale s and a bias b (scalars):
  the logit of the pair (i, j) is s · Σ_k A(i,k) · B(j,k) + b; its ground-truth sign is 2 · lab(i) − 1 on the diagonal
  i = j and −1 off it; the pair's loss is softplus (−(sign · logit)), softplus x = max x 0 + log (1 + exp (−|x|)), which
  is −log_sigmoid (sign · logit). The result is the sum of the 8192² losses times 2⁻²⁶ (the mean, 8192² = 2²⁶).
  The float literals are kept as the words the programs print: the same word on both sides is never evaluated.
-/
import Idealize.ShloMosaic.Lib.ValueIdx
import Idealize.ShloMosaic.PureOps.Ideal.Laws
import proofs.«149174_j90159953478072_1_alg».proof.Proof.LibProductAt

noncomputable section

namespace Cert.Spec

open Idealize.ShloMosaic Idealize.ShloMosaic.ValueIdx Cert.ProductAt

/-- The shapes of the arguments: features, labels, scalars. -/
abbrev SF : Shape := ⟨2, ![8192, 256]⟩
abbrev SLab : Shape := ⟨1, ![8192]⟩
abbrev SSc : Shape := ⟨0, ![]⟩

/-- softplus x = max x 0 + log (1 + exp (−|x|)), with |x| = max x (−x), on the extended reals. -/
def softplus (x : EReal) : EReal := max x 0 + Ideal.log1p (Ideal.exp (-(max x (-x))))

/-- The ground-truth sign of the pair (i, j): 2 · lab i − 1 on the diagonal, −1 elsewhere. -/
def sign (lab : SLab.Idx → EReal) (i j : Nat) (hi : i < 8192) : EReal :=
  if i = j then Ideal.ofBits .f32 0x40000000#32 * lab (ix1 ⟨i, hi⟩) - Ideal.ofBits .f32 0x3F800000#32
  else Ideal.ofBits .f32 0xBF800000#32

/-- The logit of the pair (i, j): s · ⟨A i, B j⟩ + b. -/
def logit (A B : SF.Idx → EReal) (s b : SSc.Idx → EReal) (i j : Nat) (hi : i < 8192) (hj : j < 8192) : EReal :=
  s ix0 * (∑ k : Fin 256, A (at2 i hi k.val k.isLt) * B (at2 j hj k.val k.isLt)) + b ix0

/-- The loss of the pair (i, j), a total function of two numbers (0 outside the 8192 × 8192 square). -/
def lossAt (A B : SF.Idx → EReal) (lab : SLab.Idx → EReal) (s b : SSc.Idx → EReal) (i j : Nat) : EReal :=
  if h : i < 8192 ∧ j < 8192 then softplus (-(sign lab i j h.1 * logit A B s b i j h.1 h.2)) else 0

theorem lossAt_eq (A B : SF.Idx → EReal) (lab : SLab.Idx → EReal) (s b : SSc.Idx → EReal) (i j : Nat)
    (hi : i < 8192) (hj : j < 8192) :
    lossAt A B lab s b i j = softplus (-(sign lab i j hi * logit A B s b i j hi hj)) := dif_pos ⟨hi, hj⟩

/-- The sum of all the losses. -/
def total (A B : SF.Idx → EReal) (lab : SLab.Idx → EReal) (s b : SSc.Idx → EReal) : EReal :=
  ∑ i : Fin 8192, ∑ j : Fin 8192, lossAt A B lab s b i.val j.val

/-- THE RESULT: the mean loss, the total times 2⁻²⁶, as a scalar array. -/
def result (A B : SF.Idx → EReal) (lab : SLab.Idx → EReal) (s b : SSc.Idx → EReal) : SSc.Idx → EReal :=
  fun _ => total A B lab s b * Ideal.ofBits .f32 0x32800000#32

/-- One tile's share of the total: tile t covers the 2048 rows from (t / 16) · 2048 and the 512 columns from
    (t % 16) · 512 (the 64 tiles are numbered row-major over a 4 × 16 grid). -/
def tileTerm (A B : SF.Idx → EReal) (lab : SLab.Idx → EReal) (s b : SSc.Idx → EReal) (t : Nat) : EReal :=
  ∑ r : Fin 2048, ∑ c : Fin 512, lossAt A B lab s b (t / 16 * 2048 + r.val) (t % 16 * 512 + c.val)

/-- The same mean written as the negated mean of the negated losses, −((0 + Σ_{(i,j)} −loss(i,j)) / 2²⁶): the form in
    which a host program computes −mean(log_sigmoid). -/
def negMeanForm (A B : SF.Idx → EReal) (lab : SLab.Idx → EReal) (s b : SSc.Idx → EReal) : SSc.Idx → EReal :=
  fun _ => -(Ideal.div (Ideal.ofBits .f32 0x00000000#32
      + ∑ ij : (⟨2, ![8192, 8192]⟩ : Shape).Idx, -(lossAt A B lab s b (ij 0).val (ij 1).val))
    (Ideal.ofBits .f32 0x4C800000#32))

end Cert.Spec

end
-- ==== Proof.TileLayout.lean ====
/-
  The layout operations of one 2048 × 512 tile, each read at an index written by its coordinates.

  A column [a, 1] broadcast over the columns of [a, b]; a row [1, a] and a vector [a] recast as the column [a, 1]; the
  one-element vector [1] recast as [1, 1]; the element of a [1, 1] vector; and the two sums a tile's total is taken by:
  over the columns of [2048, 512] (a row's sum) and over the rows of the resulting column [2048, 1].
-/
import proofs.«149174_j90159953478072_1_alg».proof.Proof.Gen.KernelIdeal.Skeleton
import Idealize.ShloMosaic.Lib.ValueLayout
import Idealize.ShloMosaic.PureOps.Ideal.Laws

noncomputable section

namespace Cert.KernelIdeal.Tile

open Idealize.ShloMosaic Idealize.ShloMosaic.ValueIdx Cert.KernelIdeal Cert.KernelIdeal.Gen

variable {α : Type}

/-! ## Broadcasts and shape casts -/

/-- A column [a, 1] broadcast to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row [1, a] recast as the column [a, 1] reads, at (i, u), the row's entry i. -/
theorem shapeCast_1a_a1_apply {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- A vector [a] recast as the column [a, 1] reads, at (i, u), the vector's entry i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- The element of a [1, 1] vector taken at position (0, 0) is its value at the index (0, 0). -/
theorem extractAt_00_apply (x : S1x1.Idx → α) (h : ∀ a, (![0, 0] : Fin 2 → Nat) a < S1x1.size a) :
    extractAt ![0, 0] x h = x (ix2 (0 : Fin 1) (0 : Fin 1)) := by
  unfold extractAt
  exact congrArg x (funext fun a => Fin.ext (by match a with | ⟨0, _⟩ => rfl | ⟨1, _⟩ => rfl))

/-! ## The two sums -/

/-- The sum over the columns of a [2048, 512] tile, at row r, is the sum over q < 512 of the tile at (r, q). -/
theorem rowSum_apply (v : FVec Ideal S2048x512 .f32) (h : S2048x512.Reduces [1] S2048) (hφ : FKind.Formats .f32)
    (hacc : (0x00000000#32 : BitVec 32) = FKind.add.neutral .f32 hφ) (r : Fin 2048) :
    multiReduction (F := Ideal) .add [1] S2048 v 0x00000000#32 h hφ hacc (ix1 r) = ∑ q : Fin 512, v (ix2 r q) := by
  refine (Ideal.multiReduction_add_single v 0x00000000#32 h hφ hacc (ix1 r)).trans ?_
  show ∑ q : Fin 512, v (h.lift (ix1 r) q) = _
  refine Finset.sum_congr rfl fun q _ => congrArg v ?_
  funext a
  match a with
  | ⟨0, _⟩ => exact Fin.ext rfl
  | ⟨1, _⟩ => exact Fin.ext rfl

/-- The sum over the rows of a [2048, 1] column, at its one index, is the sum over r < 2048 of the column at (r, 0). -/
theorem colSum_apply (v : FVec Ideal S2048x1 .f32) (h : S2048x1.Reduces [0] S1) (hφ : FKind.Formats .f32)
    (hacc : (0x00000000#32 : BitVec 32) = FKind.add.neutral .f32 hφ) :
    multiReduction (F := Ideal) .add [0] S1 v 0x00000000#32 h hφ hacc (ix1 (0 : Fin 1))
      = ∑ r : Fin 2048, v (ix2 r (0 : Fin 1)) := by
  refine (Ideal.multiReduction_add_single v 0x00000000#32 h hφ hacc (ix1 (0 : Fin 1))).trans ?_
  show ∑ r : Fin 2048, v (h.lift (ix1 (0 : Fin 1)) r) = _
  refine Finset.sum_congr rfl fun r _ => congrArg v ?_
  funext a
  match a with
  | ⟨0, _⟩ => exact Fin.ext rfl
  | ⟨1, _⟩ => exact Fin.ext rfl

end Cert.KernelIdeal.Tile

end
-- ==== Proof.TileLogit.lean ====
/-
  One tile's logits, diagonal mask and label signs, read at an index.

  The logit tile is scale · (x0 · x1ᵀ) + bias with the two feature blocks rounded to bf16 on the way into the product
  (no rounding on the extended reals); the mask is the comparison of the global row i0 · 2048 + p with the global column
  j0 · 512 + q as 32-bit words, which is the comparison of the numbers because both are below 2³²; the sign column is
  2 · label − 1 down the block of labels.
-/
import proofs.«149174_j90159953478072_1_alg».proof.Proof.Gen.KernelIdeal.Skeleton
import proofs.«149174_j90159953478072_1_alg».proof.Proof.TileLayout
import proofs.«149174_j90159953478072_1_alg».proof.Proof.LibProductAt

noncomputable section

namespace Cert.KernelIdeal.Tile

open Idealize.ShloMosaic Idealize.ShloMosaic.ValueIdx Cert.KernelIdeal Cert.KernelIdeal.Gen Cert.ProductAt

/-! ## The product -/

/-- The block product into the zero accumulator, at (p, q): the sum over k < 256 of l (p, k) · r (k, q). -/
theorem matmul_at (l : FVec Ideal S2048x256 .bf16) (r : FVec Ideal S256x512 .bf16) (p : Fin 2048) (q : Fin 512) :
    matmul dot_S2048x256_S256x512_S2048x512_1_0_0_1_n_n none l r (constant (F := Ideal) S2048x512 .f32 0x00000000#32) (ix2 p q)
      = ∑ k : Fin 256, l (ix2 p k) * r (ix2 k q) := by
  refine (Ideal.matmul_constant_zero_apply dot_S2048x256_S256x512_S2048x512_1_0_0_1_n_n none l r (ix2 p q)).trans ?_
  refine (product_sum_eq (A := 2048) (B := 512) (K := 256) dot_S2048x256_S256x512_S2048x512_1_0_0_1_n_n rfl rfl rfl rfl
    (fun j c => by
      unfold DotDims.lhsIdx
      rw [dif_neg (by decide), dif_pos (by decide)]
      rfl)
    (fun j c => by
      unfold DotDims.rhsIdx
      rw [dif_neg (by decide), dif_pos (by decide)]
      rfl) l r (ix2 p q)).trans ?_
  refine Finset.sum_congr rfl fun k _ => ?_
  have el : (at2 ((ix2 p q : S2048x512.Idx) 0).val (idx2_lt0 _) k.val k.isLt : S2048x256.Idx) = ix2 p k :=
    funext fun a => Fin.ext (by match a with | ⟨0, _⟩ => rfl | ⟨1, _⟩ => rfl)
  have er : (at2 k.val k.isLt ((ix2 p q : S2048x512.Idx) 1).val (idx2_lt1 _) : S256x512.Idx) = ix2 k q :=
    funext fun a => Fin.ext (by match a with | ⟨0, _⟩ => rfl | ⟨1, _⟩ => rfl)
  rw [el, er]

/-! ## The logits -/

/-- The logit tile at (p, q): scale · Σ_k x0 (p, k) · x1 (q, k) + bias. -/
theorem pay4_apply (x0 : Vec Ideal S2048x256 .f32) (x1 : Vec Ideal S512x256 .f32) (x3 x4 : Vec Ideal S1x1 .f32)
    (p : Fin 2048) (q : Fin 512) :
    k0_pay4 (F := Ideal) x0 x1 x3 x4 (ix2 p q)
      = x3 (ix2 (0 : Fin 1) (0 : Fin 1)) * (∑ k : Fin 256, x0 (ix2 p k) * x1 (ix2 q k))
        + x4 (ix2 (0 : Fin 1) (0 : Fin 1)) := by
  unfold k0_pay4
  rw [addf_apply, mulf_apply, broadcast_apply, broadcast_apply, extractAt_00_apply, extractAt_00_apply, matmul_at]
  refine congrArg (fun z => _ * z + _) (Finset.sum_congr rfl fun k _ => ?_)
  rw [truncf_apply, transpose_ix2_apply, truncf_apply]

/-! ## The label signs -/

/-- The sign column at (r, 0): 2 · label − 1, the label read from the block's one row. -/
theorem pay6_apply (x2 : Vec Ideal S1x2048 .f32) (r : Fin 2048) (u : Fin 1) :
    k0_pay6 (F := Ideal) x2 (ix2 r u)
      = Ideal.ofBits .f32 0x40000000#32 * x2 (ix2 (0 : Fin 1) r) - Ideal.ofBits .f32 0x3F800000#32 := by
  unfold k0_pay6
  rw [shapeCast_self, shapeCast_self, subf_apply, mulf_apply, broadcast_apply, broadcast_apply, shapeCast_1a_a1_apply]
  rfl

/-! ## The diagonal mask -/

/-- Integer operations on vectors act element by element. -/
theorem addi_apply {s : Shape} {w : Nat} (x y : IVec s w) (i : s.Idx) : addi x y i = IntOp.addi (x i) (y i) := rfl
theorem cmpi_apply {s : Shape} {w : Nat} (c : CmpIPredicate) (x y : IVec s w) (i : s.Idx) :
    cmpi c x y i = IntOp.cmpi c (x i) (y i) := rfl

/-- The global row i0 · 2048 + p and the global column j0 · 512 + q, computed on 32-bit words, are equal as words exactly
    when they are equal as numbers: both are below 8192. -/
theorem word_eq_iff (i0 j0 : Nat) (hi : i0 < 4) (hj : j0 < 16) (p : Fin 2048) (q : Fin 512) :
    IntOp.addi (Scalar.muli (BitVec.ofNat 32 i0) 2048#32) (BitVec.ofNat 32 p.val)
        = IntOp.addi (Scalar.muli (BitVec.ofNat 32 j0) 512#32) (BitVec.ofNat 32 q.val)
      ↔ i0 * 2048 + p.val = j0 * 512 + q.val := by
  have hp := p.isLt
  have hq := q.isLt
  unfold IntOp.addi Scalar.muli IntOp.muli
  rw [← BitVec.toNat_inj]
  simp only [BitVec.toNat_add, BitVec.toNat_mul, BitVec.toNat_ofNat]
  omega

/-- The mask at (p, q) is set exactly on the diagonal of the whole square. -/
theorem pay5_apply (i : grid0.Coords) (i0 j0 : Nat) (hi0 : (i 0).val = i0) (hj0 : (i 1).val = j0) (hi : i0 < 4) (hj : j0 < 16)
    (p : Fin 2048) (q : Fin 512) :
    k0_pay5 i (ix2 p q) = if i0 * 2048 + p.val = j0 * 512 + q.val then 1#1 else 0#1 := by
  unfold k0_pay5
  rw [cmpi_apply, broadcastTo_a1_ab_apply, broadcastTo_1b_ab_apply, addi_apply, addi_apply, broadcast_apply, broadcast_apply,
    iota_single_apply, iota_single_apply, hi0, hj0]
  show IntOp.cmpi .eq (IntOp.addi (Scalar.muli (BitVec.ofNat 32 i0) 2048#32) (BitVec.ofNat 32 p.val))
      (IntOp.addi (Scalar.muli (BitVec.ofNat 32 j0) 512#32) (BitVec.ofNat 32 q.val)) = _
  by_cases h : i0 * 2048 + p.val = j0 * 512 + q.val
  · rw [if_pos h]
    exact IntOp.cmpi_eq.mpr ((word_eq_iff i0 j0 hi hj p q).mpr h)
  · rw [if_neg h]
    exact eq_zero_of_ne_one fun h1 => h ((word_eq_iff i0 j0 hi hj p q).mp (IntOp.cmpi_eq.mp h1))

end Cert.KernelIdeal.Tile

end
-- ==== Proof.TileTerm.lean ====
/-
  One tile's share of the total loss.

  The tile's body adds to the running total the sum, over its 2048 rows and 512 columns, of
  0 − (0 − L) where L is the softplus of t = 0 − sign · logit written as max t 0 + log (1 + exp (0 − |t − 0|)), guarded by a
  test t − 0 ≠ t − 0 that no extended real passes. With 0 − y = −y and x − 0 = x on the extended reals this is the loss of
  the pair of the specification, at the pair's global row and column.
-/
import proofs.«149174_j90159953478072_1_alg».proof.Proof.Gen.KernelIdeal.Skeleton
import proofs.«149174_j90159953478072_1_alg».proof.Proof.Spec
import proofs.«149174_j90159953478072_1_alg».proof.Proof.TileLayout
import proofs.«149174_j90159953478072_1_alg».proof.Proof.TileLogit

noncomputable section

namespace Cert.KernelIdeal.Tile

open Idealize.ShloMosaic Idealize.ShloMosaic.ValueIdx Cert.KernelIdeal Cert.KernelIdeal.Gen Cert.ProductAt

/-! ## The absolute value, the exponential and log (1 + ·), element by element -/

theorem absf_apply {s : Shape} {φ : FTy} (a : FVec Ideal s φ) (i : s.Idx) : absf a i = max (a i) (-(a i)) := rfl
theorem exp_apply {s : Shape} {φ : FTy} (a : FVec Ideal s φ) (i : s.Idx) : exp a i = Ideal.exp (a i) := rfl
theorem log1p_apply {s : Shape} {φ : FTy} (a : FVec Ideal s φ) (i : s.Idx) : log1p a i = Ideal.log1p (a i) := rfl

/-! ## One pair's term -/

/-- No extended real differs from itself: the guard of the softplus is never taken. -/
theorem cmp_one_self (t : EReal) : Ideal.cmp .one t t = 0#1 := by
  show BitVec.ofBool (decide (t ≠ t)) = 0#1
  rw [decide_eq_false (fun h => h rfl)]
  rfl

/-- The body's chain on one pair, m = sign · logit: 0 − (0 − L) with L the guarded softplus of t = 0 − m, is softplus (−m). -/
theorem chain_eq (m : EReal) :
    Ideal.ofBits .f32 0x00000000#32 -
        (Ideal.ofBits .f32 0x00000000#32 -
          Scalar.select
            (Ideal.cmp .one (Ideal.ofBits .f32 0x00000000#32 - m - Ideal.ofBits .f32 0x00000000#32)
              (Ideal.ofBits .f32 0x00000000#32 - m - Ideal.ofBits .f32 0x00000000#32))
            (Ideal.ofBits .f32 0x00000000#32 - m + Ideal.ofBits .f32 0x00000000#32)
            (max (Ideal.ofBits .f32 0x00000000#32 - m) (Ideal.ofBits .f32 0x00000000#32) +
              Ideal.log1p
                (Ideal.exp
                  (Ideal.ofBits .f32 0x00000000#32 -
                    max (Ideal.ofBits .f32 0x00000000#32 - m - Ideal.ofBits .f32 0x00000000#32)
                      (-(Ideal.ofBits .f32 0x00000000#32 - m - Ideal.ofBits .f32 0x00000000#32))))))
      = Cert.Spec.softplus (-m) := by
  rw [Ideal.ofBits_zero_f32, cmp_one_self, select_zero]
  unfold Cert.Spec.softplus
  simp only [zero_sub, sub_zero, neg_neg]

/-- The body's stored value at its one index, over any logit tile, mask, off-diagonal sign and sign column: the running
    total plus the sum over the tile's rows and columns of softplus (−(sign · logit)), the sign chosen by the mask. -/
theorem pay1_apply (v18 : FVec Ideal S2048x512 .f32) (v29 : IVec S2048x512 1) (c : Ideal .f32) (v37 : FVec Ideal S2048x1 .f32)
    (xs : Vec Ideal S1x1 .f32) :
    k0_pay1 (F := Ideal) v18 v29 c v37 xs (ix2 (0 : Fin 1) (0 : Fin 1))
      = xs (ix2 (0 : Fin 1) (0 : Fin 1)) + ∑ r : Fin 2048, ∑ q : Fin 512,
          Cert.Spec.softplus (-(Scalar.select (v29 (ix2 r q)) (v37 (ix2 r (0 : Fin 1))) c * v18 (ix2 r q))) := by
  unfold k0_pay1
  rw [shapeCast_self, addf_apply, shapeCast_a_1a_apply]
  refine congrArg (xs (ix2 (0 : Fin 1) (0 : Fin 1)) + ·) ?_
  refine (colSum_apply _ _ _ _).trans (Finset.sum_congr rfl fun r _ => ?_)
  rw [shapeCast_a_a1_apply]
  refine (rowSum_apply _ _ _ _ r).trans (Finset.sum_congr rfl fun q _ => ?_)
  simp only [subf_apply, addf_apply, mulf_apply, maximumf_apply, broadcast_apply, select_apply, cmpf_apply,
    broadcastTo_a1_ab_apply, absf_apply, exp_apply, log1p_apply, Ideal.ofBits_def, Ideal.cmpf_def]
  exact chain_eq _

/-! ## The tile -/

/-- ONE TILE'S SHARE. At grid point (i0, j0), with the blocks the body loads read off the arrays (rows i0 · 2048 + r of the
    first features, rows j0 · 512 + q of the second, labels i0 · 2048 + r, the scale and the bias), the value the body
    stores is the running total plus the losses of the tile's 2048 × 512 pairs. -/
theorem tile_term (i : grid0.Coords) (i0 j0 : Nat) (hi0 : (i 0).val = i0) (hj0 : (i 1).val = j0) (hi : i0 < 4) (hj : j0 < 16)
    (x0 : Vec Ideal S2048x256 .f32) (x1 : Vec Ideal S512x256 .f32) (x2 : Vec Ideal S1x2048 .f32) (x3 x4 xs : Vec Ideal S1x1 .f32)
    (A B : Cert.Spec.SF.Idx → EReal) (lab : Cert.Spec.SLab.Idx → EReal) (s b : Cert.Spec.SSc.Idx → EReal)
    (h0 : ∀ (r : Fin 2048) (k : Fin 256), x0 (ix2 r k) = A (at2 (i0 * 2048 + r.val) (by omega) k.val k.isLt))
    (h1 : ∀ (q : Fin 512) (k : Fin 256), x1 (ix2 q k) = B (at2 (j0 * 512 + q.val) (by omega) k.val k.isLt))
    (h2 : ∀ r : Fin 2048, x2 (ix2 (0 : Fin 1) r) = lab (ix1 ⟨i0 * 2048 + r.val, by omega⟩))
    (h3 : x3 (ix2 (0 : Fin 1) (0 : Fin 1)) = s ix0) (h4 : x4 (ix2 (0 : Fin 1) (0 : Fin 1)) = b ix0) :
    k0_pay1 (F := Ideal) (k0_pay4 x0 x1 x3 x4) (k0_pay5 i) (Scalar.ofBits .f32 0xBF800000#32) (k0_pay6 x2) xs
        (ix2 (0 : Fin 1) (0 : Fin 1))
      = xs (ix2 (0 : Fin 1) (0 : Fin 1))
        + ∑ r : Fin 2048, ∑ q : Fin 512, Cert.Spec.lossAt A B lab s b (i0 * 2048 + r.val) (j0 * 512 + q.val) := by
  rw [pay1_apply]
  refine congrArg (xs (ix2 (0 : Fin 1) (0 : Fin 1)) + ·) (Finset.sum_congr rfl fun r _ => Finset.sum_congr rfl fun q _ => ?_)
  have hr : i0 * 2048 + r.val < 8192 := by omega
  have hq : j0 * 512 + q.val < 8192 := by omega
  rw [Cert.Spec.lossAt_eq A B lab s b _ _ hr hq, pay4_apply, pay5_apply i i0 j0 hi0 hj0 hi hj, pay6_apply]
  refine congrArg (fun z => Cert.Spec.softplus (-z)) (congrArg₂ (· * ·) ?_ ?_)
  · unfold Cert.Spec.sign
    by_cases h : i0 * 2048 + r.val = j0 * 512 + q.val
    · rw [if_pos h, if_pos h, select_one, h2]
    · rw [if_neg h, if_neg h, select_zero]
      rfl
  · unfold Cert.Spec.logit
    rw [h3, h4]
    refine congrArg (fun z => s ix0 * z + b ix0) (Finset.sum_congr rfl fun k _ => ?_)
    rw [h0, h1]

/-! ## The two small payloads -/

/-- The final scaling: the stored total times 2⁻²⁶. -/
theorem pay2_apply (v : Vec Ideal S1x1 .f32) :
    k0_pay2 (F := Ideal) v (ix2 (0 : Fin 1) (0 : Fin 1))
      = v (ix2 (0 : Fin 1) (0 : Fin 1)) * Ideal.ofBits .f32 0x32800000#32 := by
  unfold k0_pay2
  rw [mulf_apply, broadcast_apply]
  rfl

/-- The running total starts at zero. -/
theorem pay3_apply : k0_pay3 (F := Ideal) (ix2 (0 : Fin 1) (0 : Fin 1)) = 0 := by
  unfold k0_pay3
  rw [shapeCast_self, broadcast_apply]
  exact Ideal.ofBits_zero_f32

end Cert.KernelIdeal.Tile

end
-- ==== Proof.Algebra.lean ====
/-
  The algebra that joins the two arrangements of the mean loss.

  Every loss is softplus of something, and softplus x = max x 0 + log (1 + exp (−|x|)) is never negative on the
  extended reals; sums of non-negative extended reals commute with negation, which is what lets the negated mean of the
  negated losses be the mean of the losses; division by 2²⁶ is multiplication by 2⁻²⁶; and the 64 tiles of 2048 × 512
  pairs partition the 8192 × 8192 square.
-/
import proofs.«149174_j90159953478072_1_alg».proof.Proof.Spec

noncomputable section

namespace Cert.Algebra

open Idealize.ShloMosaic Cert.Spec

/-! ## Non-negativity -/

/-- log (1 + exp y) is non-negative at every extended real y: exp y ≥ 0, so 1 + exp y ≥ 1. -/
theorem log1p_exp_nonneg (y : EReal) : 0 ≤ Ideal.log1p (Ideal.exp y) := by
  unfold Ideal.log1p
  induction y using EReal.rec with
  | bot =>
    rw [Ideal.exp_bot, add_zero, ← EReal.coe_one, Ideal.log_coe, if_neg (by norm_num), Real.log_one, EReal.coe_zero]
  | coe r =>
    have h1 : (1 : ℝ) ≤ 1 + Real.exp r := by have := Real.exp_pos r; linarith
    rw [Ideal.exp_coe, ← EReal.coe_one, ← EReal.coe_add, Ideal.log_coe, if_neg (by linarith)]
    exact_mod_cast Real.log_nonneg h1
  | top =>
    rw [Ideal.exp_top, EReal.add_top_of_ne_bot (by decide), Ideal.log_top]
    exact le_top

/-- softplus is non-negative everywhere on the extended reals. -/
theorem softplus_nonneg (x : EReal) : 0 ≤ softplus x := by
  unfold softplus
  exact add_nonneg (le_max_right _ _) (log1p_exp_nonneg _)

/-- So every loss is non-negative. -/
theorem lossAt_nonneg (A B : SF.Idx → EReal) (lab : SLab.Idx → EReal) (s b : SSc.Idx → EReal) (i j : Nat) :
    0 ≤ lossAt A B lab s b i j := by
  unfold lossAt
  split
  · exact softplus_nonneg _
  · exact le_refl _

/-! ## The tiles partition the square -/

section Tiles

variable {M : Type*} [AddCommMonoid M]

/-- A sum over a · m consecutive numbers, cut into a blocks of m. -/
theorem sum_range_blocks (g : ℕ → M) (a m : ℕ) :
    ∑ i ∈ Finset.range (a * m), g i = ∑ p ∈ Finset.range a, ∑ r ∈ Finset.range m, g (p * m + r) := by
  induction a with
  | zero => simp
  | succ a ih => rw [Nat.succ_mul, Finset.sum_range_add, ih, Finset.sum_range_succ]

/-- A sum over t < a · b of a function of the quotient and remainder of t by b is the double sum. -/
theorem sum_range_divmod (h : ℕ → ℕ → M) (a b : ℕ) :
    ∑ t ∈ Finset.range (a * b), h (t / b) (t % b) = ∑ p ∈ Finset.range a, ∑ q ∈ Finset.range b, h p q := by
  rw [sum_range_blocks (fun t => h (t / b) (t % b)) a b]
  refine Finset.sum_congr rfl fun p _ => Finset.sum_congr rfl fun q hq => ?_
  have hq' : q < b := Finset.mem_range.mp hq
  have hb : 0 < b := Nat.lt_of_le_of_lt (Nat.zero_le q) hq'
  have e1 : (p * b + q) / b = p := by
    rw [Nat.add_comm, Nat.add_mul_div_right _ _ hb, Nat.div_eq_of_lt hq', Nat.zero_add]
  have e2 : (p * b + q) % b = q := by
    rw [Nat.add_comm, Nat.add_mul_mod_self_right, Nat.mod_eq_of_lt hq']
  show h ((p * b + q) / b) ((p * b + q) % b) = h p q
  rw [e1, e2]

/-- A double sum over two finite ordinals as a double sum over two ranges. -/
theorem sum_fin_fin (g : ℕ → ℕ → M) (m n : ℕ) :
    ∑ r : Fin m, ∑ c : Fin n, g r.val c.val = ∑ r ∈ Finset.range m, ∑ c ∈ Finset.range n, g r c := by
  rw [Finset.sum_range (fun r => ∑ c ∈ Finset.range n, g r c)]
  exact Finset.sum_congr rfl fun r _ => (Finset.sum_range (fun c => g r.val c)).symm

/-- An a × b grid of m × n tiles, numbered row-major, partitions the (a · m) × (b · n) rectangle: summing each tile's
    entries and then the tiles is summing the rectangle. -/
theorem sum_grid_tiles (f : ℕ → ℕ → M) (a b m n T N K : ℕ) (hT : T = a * b) (hN : N = a * m) (hK : K = b * n) :
    ∑ t ∈ Finset.range T, ∑ r : Fin m, ∑ c : Fin n, f (t / b * m + r.val) (t % b * n + c.val)
      = ∑ i : Fin N, ∑ j : Fin K, f i.val j.val := by
  subst hT hN hK
  -- both sides over ranges
  rw [sum_fin_fin f (a * m) (b * n)]
  have hl : ∀ t, ∑ r : Fin m, ∑ c : Fin n, f (t / b * m + r.val) (t % b * n + c.val)
      = (fun p q => ∑ r ∈ Finset.range m, ∑ c ∈ Finset.range n, f (p * m + r) (q * n + c)) (t / b) (t % b) :=
    fun t => sum_fin_fin (fun r c => f (t / b * m + r) (t % b * n + c)) m n
  rw [Finset.sum_congr rfl fun t _ => hl t,
    sum_range_divmod (fun p q => ∑ r ∈ Finset.range m, ∑ c ∈ Finset.range n, f (p * m + r) (q * n + c)) a b,
    sum_range_blocks (fun i => ∑ j ∈ Finset.range (b * n), f i j) a m]
  refine Finset.sum_congr rfl fun p _ => ?_
  -- inside one row of tiles: cut the columns into b blocks of n, then exchange the two middle sums
  have hr : ∀ r, ∑ j ∈ Finset.range (b * n), f (p * m + r) j
      = ∑ q ∈ Finset.range b, ∑ c ∈ Finset.range n, f (p * m + r) (q * n + c) :=
    fun r => sum_range_blocks (fun j => f (p * m + r) j) b n
  rw [Finset.sum_congr rfl fun r _ => hr r]
  exact Finset.sum_comm

end Tiles

/-- The 64 tiles partition the square: the tiles' shares add up to the total. -/
theorem sum_tiles (A B : SF.Idx → EReal) (lab : SLab.Idx → EReal) (s b : SSc.Idx → EReal) :
    ∑ t ∈ Finset.range 64, tileTerm A B lab s b t = total A B lab s b := by
  unfold tileTerm total
  exact sum_grid_tiles (fun i j => lossAt A B lab s b i j) 4 16 2048 512 64 8192 8192 (by norm_num) (by norm_num)
    (by norm_num)

/-! ## The negated mean of the negated losses -/

/-- Negation passes through a finite sum of non-negative extended reals (no ⊤ + ⊥ can arise). -/
theorem sum_neg_of_nonneg {ι : Type*} (t : Finset ι) (f : ι → EReal) (h : ∀ i ∈ t, 0 ≤ f i) :
    ∑ i ∈ t, -(f i) = -(∑ i ∈ t, f i) := by
  classical
  induction t using Finset.induction_on with
  | empty => simp
  | insert a t ha ih =>
    have hfa : 0 ≤ f a := h a (Finset.mem_insert_self a t)
    have hrest : ∀ i ∈ t, 0 ≤ f i := fun i hi => h i (Finset.mem_insert_of_mem hi)
    have hsum : 0 ≤ ∑ i ∈ t, f i := Finset.sum_nonneg hrest
    have hne1 : f a ≠ ⊥ := ne_of_gt (lt_of_lt_of_le EReal.bot_lt_zero hfa)
    have hne2 : ∑ i ∈ t, f i ≠ ⊥ := ne_of_gt (lt_of_lt_of_le EReal.bot_lt_zero hsum)
    rw [Finset.sum_insert ha, Finset.sum_insert ha, ih hrest, EReal.neg_add (Or.inl hne1) (Or.inr hne2),
      sub_eq_add_neg]

/-- The word 0x4C800000 is 2²⁶. -/
theorem ofBits_two_pow_26 : Ideal.ofBits .f32 0x4C800000#32 = ((67108864 : ℝ) : EReal) := by
  simp [Ideal.ofBits, Ideal.ieee, -EReal.coe_mul]; norm_num

/-- The word 0x32800000 is 2⁻²⁶. -/
theorem ofBits_two_pow_neg_26 : Ideal.ofBits .f32 0x32800000#32 = ((1 / 67108864 : ℝ) : EReal) := by
  simp [Ideal.ofBits, Ideal.ieee, -EReal.coe_mul]; norm_num

/-- The negated mean of the negated losses is the mean of the losses. -/
theorem negMeanForm_eq_result (A B : SF.Idx → EReal) (lab : SLab.Idx → EReal) (s b : SSc.Idx → EReal) :
    negMeanForm A B lab s b = result A B lab s b := by
  funext _
  unfold negMeanForm result total
  have hsum : ∑ ij : (⟨2, ![8192, 8192]⟩ : Shape).Idx, -(lossAt A B lab s b (ij 0).val (ij 1).val)
      = -(∑ i : Fin 8192, ∑ j : Fin 8192, lossAt A B lab s b i.val j.val) := by
    rw [ValueIdx.sum_idx2 (fun ij : (⟨2, ![8192, 8192]⟩ : Shape).Idx => -(lossAt A B lab s b (ij 0).val (ij 1).val))]
    show ∑ i : Fin 8192, ∑ j : Fin 8192, -(lossAt A B lab s b i.val j.val) = _
    rw [← sum_neg_of_nonneg _ _ (fun i _ => Finset.sum_nonneg fun j _ => lossAt_nonneg A B lab s b i.val j.val)]
    exact Finset.sum_congr rfl fun i _ => sum_neg_of_nonneg _ _ (fun j _ => lossAt_nonneg A B lab s b i.val j.val)
  rw [hsum, Ideal.ofBits_zero_f32, zero_add, ofBits_two_pow_26, Ideal.div_coe (by norm_num), EReal.neg_mul, neg_neg,
    ofBits_two_pow_neg_26]

end Cert.Algebra

end
-- ==== Proof.Accum.lean ====
/-
  The accumulator across the grid: after point n it holds the sum of the tile shares of the points 0 … n.

  Each point's body adds to the accumulator the sum, over the point's 2048 × 512 tile of pairs, of the pairs' losses
  (the first point after zeroing it); the point's input blocks are the tile's rows of the two feature arrays, the
  labels of its rows, the scale and the bias. By induction on the point the accumulator is the partial sum; the 64
  tiles partition the 8192 × 8192 square, so after the last point it is the whole sum, and the output block, written
  at that point only, holds it times 2⁻²⁶.
-/
import proofs.«149174_j90159953478072_1_alg».proof.Proof.Pieces
import proofs.«149174_j90159953478072_1_alg».proof.Proof.Blocks
import proofs.«149174_j90159953478072_1_alg».proof.Proof.BlocksHost
import proofs.«149174_j90159953478072_1_alg».proof.Proof.TileTerm
import proofs.«149174_j90159953478072_1_alg».proof.Proof.Algebra

noncomputable section

open Idealize.ShloMosaic Idealize.ShloMosaic.TcCoe Idealize.SL.Sem
open Idealize.ShloMosaic.Pipeline (Dat)

namespace Cert.KernelIdeal.Accum

open Cert.KernelIdeal Cert.KernelIdeal.Gen Idealize.ShloMosaic.ValueIdx Cert.ProductAt Cert.Spec
open Cert.KernelIdeal.Pieces Cert.KernelIdeal.Blocks Cert.KernelIdeal.BlocksHost Cert.KernelIdeal.Tile

variable (m : (ℓ : Loc nD τ sig) → Buf (Elt Ideal) ℓ)

/-- The five argument arrays on core c. -/
abbrev aA (c : Dev nD) : SF.Idx → EReal := m ((c : Thread nD τ).loc main_arg0)
abbrev aB (c : Dev nD) : SF.Idx → EReal := m ((c : Thread nD τ).loc main_arg1)
abbrev aL (c : Dev nD) : SLab.Idx → EReal := m ((c : Thread nD τ).loc main_arg2)
abbrev aS (c : Dev nD) : SSc.Idx → EReal := m ((c : Thread nD τ).loc main_arg3)
abbrev aT (c : Dev nD) : SSc.Idx → EReal := m ((c : Thread nD τ).loc main_arg4)

theorem lt64 (t : Fin cfg0.N) : t.val < 64 := lt_of_lt_of_eq t.isLt (show cfg0.N = 64 from N_0)

/-- One point's step: the accumulating payload of the point's blocks adds the point's tile share. -/
theorem step (c : Dev nD) (t : Fin cfg0.N) (xs : Vec Ideal S1x1 .f32) :
    k0_pay1 (F := Ideal) (k0_pay4 (iblk m c 0 t) (iblk m c 1 t) (iblk m c 3 t) (iblk m c 4 t)) (k0_pay5 (grid0.coords t))
        (Scalar.ofBits .f32 0xBF800000#32) (k0_pay6 (iblk m c 2 t)) xs (ix2 (0 : Fin 1) (0 : Fin 1))
      = xs (ix2 (0 : Fin 1) (0 : Fin 1)) + tileTerm (aA m c) (aB m c) (aL m c) (aS m c) (aT m c) t.val := by
  have ht := lt64 t
  exact tile_term (grid0.coords t) (t.val / 16) (t.val % 16) (coords_facts t).1 (coords_facts t).2 (by omega) (by omega)
    (iblk m c 0 t) (iblk m c 1 t) (iblk m c 2 t) (iblk m c 3 t) (iblk m c 4 t) xs (aA m c) (aB m c) (aL m c) (aS m c) (aT m c)
    (iblk0 m c t ht) (iblk1 m c t ht) (iblk2 m c t ht) (iblk3 m c t) (iblk4 m c t)

/-- The sum of the tile shares of the points 0 … n. -/
def acc (c : Dev nD) (n : Nat) : EReal :=
  ∑ t ∈ Finset.range (n + 1), tileTerm (aA m c) (aB m c) (aL m c) (aS m c) (aT m c) t

/-- After point n the accumulator holds the sum of the tile shares of the points 0 … n: by induction on the point. -/
theorem outs_eq (c : Dev nD) : ∀ (n : Nat) (hn : n < cfg0.N),
    (outsAt0 m c n hn).2 (ix2 (0 : Fin 1) (0 : Fin 1)) = acc m c n
  | 0, hn => by
    rw [outsAt0_A m c ⟨0, hn⟩ rfl (by dsimp only; omega)]
    dsimp only
    rw [sout_A, step m c ⟨0, hn⟩, pay3_apply, zero_add]
    show _ = ∑ t ∈ Finset.range 1, _
    rw [Finset.sum_range_one]
  | n + 1, hn => by
    have hN : n + 1 < 64 := lt_of_lt_of_eq hn (show cfg0.N = 64 from N_0)
    have h0 : ¬(⟨n + 1, hn⟩ : Fin cfg0.N).val % 64 = 0 := by dsimp only; omega
    by_cases h1 : (⟨n + 1, hn⟩ : Fin cfg0.N).val % 64 = 63
    · rw [outsAt0_C m c ⟨n + 1, hn⟩ h0 h1]
      dsimp only
      rw [sout_C, step m c ⟨n + 1, hn⟩]
      show (outsAt0 m c n _).2 _ + _ = _
      rw [outs_eq c n]
      simp only [acc]
      rw [Finset.sum_range_succ _ (n + 1)]
    · rw [outsAt0_B m c ⟨n + 1, hn⟩ h0 h1]
      dsimp only
      rw [sout_B, step m c ⟨n + 1, hn⟩]
      show (outsAt0 m c n _).2 _ + _ = _
      rw [outs_eq c n]
      simp only [acc]
      rw [Finset.sum_range_succ _ (n + 1)]

/-- At the last point the output block holds the accumulated sum times 2⁻²⁶. -/
theorem out_at_last (c : Dev nD) (n : Nat) (hn : n + 1 < cfg0.N) (h1 : (n + 1) % 64 = 63) :
    (outsAt0 m c (n + 1) hn).1 (ix2 (0 : Fin 1) (0 : Fin 1)) = acc m c (n + 1) * Ideal.ofBits .f32 0x32800000#32 := by
  have hN : n + 1 < 64 := lt_of_lt_of_eq hn (show cfg0.N = 64 from N_0)
  have h0 : ¬(⟨n + 1, hn⟩ : Fin cfg0.N).val % 64 = 0 := by dsimp only; omega
  rw [outsAt0_C m c ⟨n + 1, hn⟩ h0 h1]
  dsimp only
  rw [out_C, pay2_apply, step m c ⟨n + 1, hn⟩]
  show ((outsAt0 m c n _).2 _ + _) * _ = _
  rw [outs_eq m c n]
  simp only [acc]
  rw [Finset.sum_range_succ _ (n + 1)]

/-- The mean as the kernel leaves it in its output block: the 64 tile shares are the whole sum. -/
theorem out_last (c : Dev nD) (h : 62 + 1 < cfg0.N) :
    (outsAt0 m c (62 + 1) h).1 (ix2 (0 : Fin 1) (0 : Fin 1))
      = total (aA m c) (aB m c) (aL m c) (aS m c) (aT m c) * Ideal.ofBits .f32 0x32800000#32 := by
  rw [out_at_last m c 62 h rfl]
  simp only [acc]
  rw [Cert.Algebra.sum_tiles]

end Cert.KernelIdeal.Accum

end
-- ==== Proof.KValue.lean ====
/-
  The kernel's run, read as a value: its result is the mean loss of the specification.

  The output window is written back once, after the last grid point, and its one block is the whole [1, 1] array, so
  that array ends at the accumulated total times 2⁻²⁶; the host line after the region reshapes it to the scalar result;
  the argument arrays are untouched.
-/
import proofs.«149174_j90159953478072_1_alg».proof.Proof.Accum

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Cert.ProductAt Cert.Spec
open Cert.KernelIdeal.Accum Cert.KernelIdeal.BlocksHost

variable (m : (ℓ : Loc nD τ sig) → Buf (Elt Ideal) ℓ) (ρ : Dev nD → PrngReg)

/-- The one-element output array at the mean loss. -/
abbrev res (c : Dev nD) : Buf (Elt Ideal) ((c : Thread nD τ).loc main_v3) :=
  fun _ => total (aA m c) (aB m c) (aL m c) (aS m c) (aT m c) * Ideal.ofBits .f32 0x32800000#32

/-- A [1, 1] array has one index. -/
theorem idx11 (y : S1x1.Idx) : y = ix2 (0 : Fin 1) (0 : Fin 1) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)

/-- The last grid point. -/
abbrev tLast : Fin cfg0.N := ⟨62 + 1, by rw [show cfg0.N = 64 from N_0]; decide⟩

/-- The output block after the last point, as a function: the mean at its one index. -/
theorem out_fun (c : Dev nD) : (outsAt0 m c tLast.val tLast.isLt).1 = res m c :=
  funext fun y => by rw [idx11 y]; exact out_last m c _

/-- The one write-back, at the last point, writes the mean: the [1, 1] block at zero offsets is the array. -/
theorem flushed_eq (c : Dev nD) (t : Fin cfg0.N) (hf : (cfg0.win 5).flush t = true) :
    (dats m 0 c).flushed 5 t = ((cfg0.win 5).blk t).view.read (Elt Ideal) (res m c) := by
  have hN : cfg0.N = 64 := N_0
  have h3 : t.val = 63 := by have := (flush0_5 t).mp hf; have := t.isLt; omega
  obtain rfl : t = tLast := Fin.ext h3
  show (cfg0.win 5).cut (grid0.coords tLast) ((dats m 0 c).after 5 tLast) = _
  rw [after0_5, out_fun]
  have hz' : (fun a => win0_5.index tLast a * main_v3.ty.shape.size a) = fun _ => 0 := funext fun a => by fin_cases a <;> decide
  exact (Memref.read_access_unit_zero (Elt Ideal) main_v3 hz' (fun a => by rw [congrFun hz' a]; simp) (res m c)).symm

/-- So the output array ends holding the mean (the last point's block covers it). -/
theorem final_o (c : Dev nD) : (dats m 0 c).arrAt 5 cfg0.N = res m c :=
  (dats m 0 c).arrAt_eq_of_cover 5 (res m c) (flushed_eq m c) fun i =>
    ⟨tLast, (flush0_5 tLast).mpr rfl, by
      show i ∈ ((View.whole main_v3).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

/-- The result scalar after the host reshape is the output array's one element. -/
theorem tail_result (c : Dev nD) :
    Pipeline.afterTail₀ cfgs (dats m) 0 (V0 m) [hostOps1] c main_v4
      = Cert.Spec.result (aA m c) (aB m c) (aL m c) (aS m c) (aT m c) := by
  funext j
  rw [eq_ix0 j]
  unfold Pipeline.afterTail₀
  show (StableHlo.after (hostOps1 (F := Ideal)) _ (Proc.devRef .tc main_v4) : S_.Idx → Elt Ideal .f32) ix0 = _
  rw [tail_v4]
  have e := (Pipeline.withArrays_arr spec0 launch0.win.arr_inj c (V0 m c) (fun w => (dats m 0 c).arrAt w cfg0.N) 5).trans (final_o m c)
  exact congrFun e (ix2 (0 : Fin 1) (0 : Fin 1))

/-- THE RUN, READ: every weakly fair execution terminates with the result at the specification's mean loss of the
    argument arrays, and those unchanged. -/
theorem run : θ_run defs (onTc (τ := τ) (main (F := Ideal))) ⟨m, fun _ => 0, ρ⟩ fun r => ∀ c : Dev nD,
      r.2.mem ((c.tc : Thread nD τ).loc main_v4) = Cert.Spec.result (aA m c) (aB m c) (aL m c) (aS m c) (aT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue
end
-- ==== Proof.RefTerm.lean ====
/-
  The reference's value as one term of its five arguments.

  Stage by stage: the logits s · A Bᵀ + b; the table whose row k holds the diagonal position (k, k); the signs, the
  constant −1 with 2 · lab − 1 written at the diagonal positions; softplus as the program spells it; log_sigmoid of the
  signed logits, −softplus (−(sign · logit)); and the negated mean over all 8192² entries.
-/
import proofs.«149174_j90159953478072_1_alg».proof.ReferenceIdeal

noncomputable section

namespace Cert.ReferenceIdeal.HandRun

open Cert.ReferenceIdeal Idealize.ShloMosaic

variable {F : FTy → Type} [FloatOps F] [Facts]
open Facts₀ Facts

/-! ## The composed term

The value the straight line leaves at the result buffer, as a function of the five arguments: named stage by stage. -/

/-- The logits s · A Bᵀ + b. -/
def logits (A B : (⟨S8192x256, .f32⟩ : BufTy).Contents (Elt F)) (s b : (⟨S_, .f32⟩ : BufTy).Contents (Elt F)) : (⟨S8192x8192, .f32⟩ : BufTy).Contents (Elt F) :=
  addf (mulf (broadcastInDim S8192x8192 ![] bcast_S_S8192x8192 s)
      (Host.dotGeneral dot_S8192x256_S256x8192_S8192x8192_1_0_0_1_n_n none A (transpose S256x8192 [1, 0] B transposes_S8192x256_S256x8192_1_0)))
    (broadcastInDim S8192x8192 ![] bcast_S_S8192x8192 b)

/-- One coordinate of the diagonal positions: the counter k, wrapped by 8192 where negative (it never is). -/
def diagCoord : (⟨S8192, .i32⟩ : BufTy).Contents (Elt F) :=
  select (cmpi .slt (iotaInDim S8192 32 0) (broadcastInDim S8192 ![] bcast_S_S8192 (constantI S_ 32 0#32)))
    (addi (iotaInDim S8192 32 0) (broadcastInDim S8192 ![] bcast_S_S8192 (constantI S_ 32 8192#32)))
    (iotaInDim S8192 32 0)

/-- The table of diagonal positions: row k holds (k, k). -/
def diagTable : (⟨S8192x2, .i32⟩ : BufTy).Contents (Elt F) :=
  concatenate S8192x2 1 [⟨S8192x1, broadcastInDim S8192x1 ![0] bcast_S8192_S8192x1_0 (diagCoord (F := F))⟩,
    ⟨S8192x1, broadcastInDim S8192x1 ![0] bcast_S8192_S8192x1_0 (diagCoord (F := F))⟩] concatenates_S8192x1_S8192x1_S8192x2_d1

/-- The diagonal's signs 2 · lab − 1. -/
def diagSigns (lab : (⟨S8192, .f32⟩ : BufTy).Contents (Elt F)) : (⟨S8192, .f32⟩ : BufTy).Contents (Elt F) :=
  subf (mulf (broadcastInDim S8192 ![] bcast_S_S8192 (constant S_ .f32 0x40000000#32)) lab)
    (broadcastInDim S8192 ![] bcast_S_S8192 (constant S_ .f32 0x3F800000#32))

/-- The signs: the constant −1 with the diagonal's signs written at the diagonal positions. -/
def signs (lab : (⟨S8192, .f32⟩ : BufTy).Contents (Elt F)) : (⟨S8192x8192, .f32⟩ : BufTy).Contents (Elt F) :=
  Host.scatter scatter_S8192x8192_S8192x2_S8192_n_01_01_1 (fun _ b => b)
    (broadcastInDim S8192x8192 ![] bcast_S_S8192x8192 (constant S_ .f32 0xBF800000#32)) (diagTable (F := F)) (diagSigns lab)

/-- The array of zeros softplus compares with. -/
def zeros : (⟨S8192x8192, .f32⟩ : BufTy).Contents (Elt F) :=
  broadcastInDim S8192x8192 ![] bcast_S_S8192x8192 (constant S_ .f32 0x00000000#32)

/-- softplus as the program computes it: x itself where x − 0 is not a number, else max x 0 + log1p (exp (−|x − 0|)). -/
def softplusT (x : (⟨S8192x8192, .f32⟩ : BufTy).Contents (Elt F)) : (⟨S8192x8192, .f32⟩ : BufTy).Contents (Elt F) :=
  select (cmpf .une (subf x zeros) (subf x zeros)) (addf x zeros)
    (addf (maximumf x zeros) (Host.log1p (Host.exp (Host.negf (Host.absf (subf x zeros))))))

/-- log_sigmoid of the signed logits, entry by entry. -/
def logSig (A B : (⟨S8192x256, .f32⟩ : BufTy).Contents (Elt F)) (lab : (⟨S8192, .f32⟩ : BufTy).Contents (Elt F)) (s b : (⟨S_, .f32⟩ : BufTy).Contents (Elt F)) :
    (⟨S8192x8192, .f32⟩ : BufTy).Contents (Elt F) :=
  Host.negf (softplusT (Host.negf (mulf (signs lab) (logits A B s b))))

/-- THE COMPOSED TERM: the negated mean of log_sigmoid over all entries. -/
def out (A B : (⟨S8192x256, .f32⟩ : BufTy).Contents (Elt F)) (lab : (⟨S8192, .f32⟩ : BufTy).Contents (Elt F)) (s b : (⟨S_, .f32⟩ : BufTy).Contents (Elt F)) : (⟨S_, .f32⟩ : BufTy).Contents (Elt F) :=
  Host.negf (Host.divf (Host.reduceAdd (logSig A B lab s b) (constant S_ .f32 0x00000000#32) reducesTo_S8192x8192_S_d0_1 h_S_)
    (constant S_ .f32 0x4C800000#32))

end Cert.ReferenceIdeal.HandRun

end
-- ==== Proof.RefRun.lean ====
/-
  The reference program's straight line, and its run.

  The reference's @main is a chain of host operations with one call, of the function computing log_sigmoid, which in
  turn calls the function computing softplus. A call executes the callee's body on the caller's buffers, so with the
  two bodies unfolded at their call sites @main is one list of 55 operations: the thirty-four before the call (the logits
  s · A Bᵀ + b, the table of diagonal positions, the signs scattered over the constant −1, their product), the sixteen
  of the two nested bodies (a negation, softplus's fourteen, a negation), and the last five (the sum of all entries from
  0, the division by 2²⁶, the final negation). Every weakly fair execution of such a list terminates with each buffer
  at the fold of the operations over the launch contents; the fold read at the result buffer is the composed term `out`
  of the five arguments, and at an argument's buffer it is the argument.
-/
import proofs.«149174_j90159953478072_1_alg».proof.Proof.RefTerm
import Idealize.ShloMosaic.Lib.StableHlo.Run

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- @main's operations in order, the two nested calls' bodies listed at the call site over the calls' buffers. -/
abbrev ops : List (HloOp τ sig (Elt F)) :=
  [ unary main_arg1 main_v0 ((transpose S256x8192 [1, 0] · transposes_S8192x256_S256x8192_1_0) : (⟨S8192x256, .f32⟩ : BufTy).Contents (Elt F) → (⟨S256x8192, .f32⟩ : BufTy).Contents (Elt F)),
    binary main_arg0 main_v0 main_v1 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    unary main_arg3 main_v2 (broadcastInDim S8192x8192 ![] bcast_S_S8192x8192 : (⟨S_, .f32⟩ : BufTy).Contents (Elt F) → (⟨S8192x8192, .f32⟩ : BufTy).Contents (Elt F)),
    binary main_v2 main_v1 main_v3 (mulf : (⟨S8192x8192, .f32⟩ : BufTy).Contents (Elt F) → (⟨S8192x8192, .f32⟩ : BufTy).Contents (Elt F) → (⟨S8192x8192, .f32⟩ : BufTy).Contents (Elt F)),
    unary main_arg4 main_v4 (broadcastInDim S8192x8192 ![] bcast_S_S8192x8192 : (⟨S_, .f32⟩ : BufTy).Contents (Elt F) → (⟨S8192x8192, .f32⟩ : BufTy).Contents (Elt F)),
    binary main_v3 main_v4 main_v5 (addf : (⟨S8192x8192, .f32⟩ : BufTy).Contents (Elt F) → (⟨S8192x8192, .f32⟩ : BufTy).Contents (Elt F) → (⟨S8192x8192, .f32⟩ : BufTy).Contents (Elt F)),
    nullary main_v6 (iotaInDim S8192 32 0),
    nullary main_cst (constant S_ .f32 0xBF800000#32),
    unary main_cst main_v7 (broadcastInDim S8192x8192 ![] bcast_S_S8192x8192 : (⟨S_, .f32⟩ : BufTy).Contents (Elt F) → (⟨S8192x8192, .f32⟩ : BufTy).Contents (Elt F)),
    nullary main_cst_0 (constant S_ .f32 0x40000000#32),
    unary main_cst_0 main_v8 (broadcastInDim S8192 ![] bcast_S_S8192 : (⟨S_, .f32⟩ : BufTy).Contents (Elt F) → (⟨S8192, .f32⟩ : BufTy).Contents (Elt F)),
    binary main_v8 main_arg2 main_v9 (mulf : (⟨S8192, .f32⟩ : BufTy).Contents (Elt F) → (⟨S8192, .f32⟩ : BufTy).Contents (Elt F) → (⟨S8192, .f32⟩ : BufTy).Contents (Elt F)),
    nullary main_cst_1 (constant S_ .f32 0x3F800000#32),
    unary main_cst_1 main_v10 (broadcastInDim S8192 ![] bcast_S_S8192 : (⟨S_, .f32⟩ : BufTy).Contents (Elt F) → (⟨S8192, .f32⟩ : BufTy).Contents (Elt F)),
    binary main_v9 main_v10 main_v11 (subf : (⟨S8192, .f32⟩ : BufTy).Contents (Elt F) → (⟨S8192, .f32⟩ : BufTy).Contents (Elt F) → (⟨S8192, .f32⟩ : BufTy).Contents (Elt F)),
    nullary main_c (constantI S_ 32 0#32),
    unary main_c main_v12 (broadcastInDim S8192 ![] bcast_S_S8192 : (⟨S_, .i32⟩ : BufTy).Contents (Elt F) → (⟨S8192, .i32⟩ : BufTy).Contents (Elt F)),
    binary main_v6 main_v12 main_v13 (cmpi .slt : (⟨S8192, .i32⟩ : BufTy).Contents (Elt F) → (⟨S8192, .i32⟩ : BufTy).Contents (Elt F) → (⟨S8192, .i1⟩ : BufTy).Contents (Elt F)),
    nullary main_c_2 (constantI S_ 32 8192#32),
    unary main_c_2 main_v14 (broadcastInDim S8192 ![] bcast_S_S8192 : (⟨S_, .i32⟩ : BufTy).Contents (Elt F) → (⟨S8192, .i32⟩ : BufTy).Contents (Elt F)),
    binary main_v6 main_v14 main_v15 (addi : (⟨S8192, .i32⟩ : BufTy).Contents (Elt F) → (⟨S8192, .i32⟩ : BufTy).Contents (Elt F) → (⟨S8192, .i32⟩ : BufTy).Contents (Elt F)),
    ternary main_v13 main_v15 main_v6 main_v16 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_3 (constantI S_ 32 0#32),
    unary main_c_3 main_v17 (broadcastInDim S8192 ![] bcast_S_S8192 : (⟨S_, .i32⟩ : BufTy).Contents (Elt F) → (⟨S8192, .i32⟩ : BufTy).Contents (Elt F)),
    binary main_v6 main_v17 main_v18 (cmpi .slt : (⟨S8192, .i32⟩ : BufTy).Contents (Elt F) → (⟨S8192, .i32⟩ : BufTy).Contents (Elt F) → (⟨S8192, .i1⟩ : BufTy).Contents (Elt F)),
    nullary main_c_4 (constantI S_ 32 8192#32),
    unary main_c_4 main_v19 (broadcastInDim S8192 ![] bcast_S_S8192 : (⟨S_, .i32⟩ : BufTy).Contents (Elt F) → (⟨S8192, .i32⟩ : BufTy).Contents (Elt F)),
    binary main_v6 main_v19 main_v20 (addi : (⟨S8192, .i32⟩ : BufTy).Contents (Elt F) → (⟨S8192, .i32⟩ : BufTy).Contents (Elt F) → (⟨S8192, .i32⟩ : BufTy).Contents (Elt F)),
    ternary main_v18 main_v20 main_v6 main_v21 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v16 main_v22 (broadcastInDim S8192x1 ![0] bcast_S8192_S8192x1_0 : (⟨S8192, .i32⟩ : BufTy).Contents (Elt F) → (⟨S8192x1, .i32⟩ : BufTy).Contents (Elt F)),
    unary main_v21 main_v23 (broadcastInDim S8192x1 ![0] bcast_S8192_S8192x1_0 : (⟨S8192, .i32⟩ : BufTy).Contents (Elt F) → (⟨S8192x1, .i32⟩ : BufTy).Contents (Elt F)),
    binary main_v22 main_v23 main_v24 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    ternary main_v7 main_v24 main_v11 main_v25 ((fun x i u => Host.scatter scatter_S8192x8192_S8192x2_S8192_n_01_01_1 (fun _ b => b) x i u) : (⟨S8192x8192, .f32⟩ : BufTy).Contents (Elt F) → (⟨S8192x2, .i32⟩ : BufTy).Contents (Elt F) → (⟨S8192, .f32⟩ : BufTy).Contents (Elt F) → (⟨S8192x8192, .f32⟩ : BufTy).Contents (Elt F)),
    binary main_v25 main_v5 main_v26 (mulf : (⟨S8192x8192, .f32⟩ : BufTy).Contents (Elt F) → (⟨S8192x8192, .f32⟩ : BufTy).Contents (Elt F) → (⟨S8192x8192, .f32⟩ : BufTy).Contents (Elt F)),
    TRef.unary (.of main_v26) main_call0.v0 Host.negf,
    TRef.nullary main_call0.call0.cst (constant S_ .f32 0x00000000#32),
    TRef.unary main_call0.call0.cst main_call0.call0.v0 (broadcastInDim S8192x8192 ![] bcast_S_S8192x8192),
    TRef.binary main_call0.v0 main_call0.call0.v0 main_call0.call0.v1 maximumf,
    TRef.unary main_call0.call0.cst main_call0.call0.v2 (broadcastInDim S8192x8192 ![] bcast_S_S8192x8192),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S8192x8192 ![] bcast_S_S8192x8192),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    nullary main_cst_5 (constant S_ .f32 0x00000000#32),
    binary main_v27 main_cst_5 main_v28 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_cst_6 (constant S_ .f32 0x4C800000#32),
    binary main_v28 main_cst_6 main_v29 (Host.divf : (⟨S_, .f32⟩ : BufTy).Contents (Elt F) → (⟨S_, .f32⟩ : BufTy).Contents (Elt F) → (⟨S_, .f32⟩ : BufTy).Contents (Elt F)),
    unary main_v29 main_v30 (Host.negf : (⟨S_, .f32⟩ : BufTy).Contents (Elt F) → (⟨S_, .f32⟩ : BufTy).Contents (Elt F)) ]

-- fifty-five binds re-associated: the rewrite under the chain recurses once per statement
set_option maxRecDepth 2048 in
/-- @main is that straight line: the two functions' definitions unfolded at their calls, both sides are one chain of
    steps once sequencing is reassociated. -/
theorem main_eq (c : Dev nD) : main (F := F) c = seq ops := by
  simp only [main, fn_log_sigmoid.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., binary_bufs_sub .., unary_bufs_sub .., binary_bufs_sub .., nullary_bufs_sub .., nullary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., binary_bufs_sub .., nullary_bufs_sub .., binary_bufs_sub .., unary_bufs_sub ..⟩

/-- From any memory with zero counters: every weakly fair execution of @main terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.scatter Host.reduceAdd concatenate transpose broadcastInDim in
set_option maxRecDepth 8192 in
set_option maxHeartbeats 1000000 in
/-- The fold at the result buffer is the composed term: each operation's result at its own buffer is its function of
    its operands' contents, and at any other buffer what was there; the typed references' transports are the identity
    at these literal references. The large array operations stay folded meanwhile: the equation never looks inside. -/
theorem out_eq (V : Valuation τ sig (Elt F)) :
    after ops V (main_v30 : DevRef τ sig)
      = out (V (main_arg0 : DevRef τ sig)) (V (main_arg1 : DevRef τ sig)) (V (main_arg2 : DevRef τ sig))
          (V (main_arg3 : DevRef τ sig)) (V (main_arg4 : DevRef τ sig)) := by
  after_results_simp
  rfl

/-- No operation writes an argument's buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- THE RUN. From any memory with zero counters: every weakly fair execution of @main terminates with the result buffer
    at the composed term of the five arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
        = out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v30).trans (out_eq _), (h c main_arg0).trans (arg0_eq _),
      (h c main_arg1).trans (arg1_eq _), (h c main_arg2).trans (arg2_eq _), (h c main_arg3).trans (arg3_eq _),
      (h c main_arg4).trans (arg4_eq _)⟩)
    (run_main m ρ)

end Cert.ReferenceIdeal.HandRun

end
-- ==== Proof.LibScatterAt.lean ====
/-
  A scatter that overwrites, read at a position.

  A scatter whose body returns the update writes the updates one after another, each at the position its start index
  names (or nowhere, when that falls outside the operand). Read at one position of the result: where no update lands
  it is the operand; where exactly one update lands it is that update, whatever came before or after it in the order
  of application. General: nothing here depends on a particular program.
-/
import Idealize.ShloMosaic.Lib.ValueIdx
import Idealize.ShloMosaic.PureOps.Ideal.Laws

noncomputable section

namespace Cert.ScatterAt

open Idealize.ShloMosaic

variable {α : Type} {s si u : Shape} {w : Nat}

/-- One step of the fold: the update numbered n written at its position, when it has one. -/
private theorem fold_not_hit (d : ScatterDims s si u) (f : α → α → α) (idx : IVec si w) (upd : u.Idx → α) (i' : s.Idx) :
    ∀ (L : List (Fin u.numel)) (x : s.Idx → α), (∀ n ∈ L, d.resultIdx? (u.rowMajor.symm n) idx ≠ some i') →
      (L.foldl (fun r n =>
        match d.resultIdx? (u.rowMajor.symm n) idx with
        | some i => fun i' => if i' = i then f (r i) (upd (u.rowMajor.symm n)) else r i'
        | none => r) x) i' = x i' := by
  intro L
  induction L with
  | nil => intro x _; rfl
  | cons n L ih =>
    intro x h
    rw [List.foldl_cons, ih _ (fun m hm => h m (List.mem_cons_of_mem _ hm))]
    have hn := h n (List.mem_cons_self ..)
    cases hr : d.resultIdx? (u.rowMajor.symm n) idx with
    | none => rfl
    | some i =>
      have hne : i' ≠ i := fun e => hn (by rw [hr, e])
      show (if i' = i then _ else x i') = x i'
      rw [if_neg hne]

private theorem fold_hit (d : ScatterDims s si u) (idx : IVec si w) (upd : u.Idx → α) (i' : s.Idx) (n₀ : Fin u.numel)
    (h0 : d.resultIdx? (u.rowMajor.symm n₀) idx = some i') :
    ∀ (L : List (Fin u.numel)) (x : s.Idx → α), L.Nodup → n₀ ∈ L →
      (∀ n ∈ L, d.resultIdx? (u.rowMajor.symm n) idx = some i' → n = n₀) →
      (L.foldl (fun r n =>
        match d.resultIdx? (u.rowMajor.symm n) idx with
        | some i => fun i' => if i' = i then (fun _ b => b) (r i) (upd (u.rowMajor.symm n)) else r i'
        | none => r) x) i' = upd (u.rowMajor.symm n₀) := by
  intro L
  induction L with
  | nil => intro x _ hm; exact absurd hm (List.not_mem_nil)
  | cons n L ih =>
    intro x hnd hm huniq
    rw [List.foldl_cons]
    by_cases hn : n = n₀
    · subst hn
      have hnot : ∀ m ∈ L, d.resultIdx? (u.rowMajor.symm m) idx ≠ some i' := fun m hmL e => by
        have := huniq m (List.mem_cons_of_mem _ hmL) e
        subst this
        exact (List.nodup_cons.1 hnd).1 hmL
      rw [fold_not_hit d (fun _ b => b) idx upd i' L _ hnot]
      rw [h0]
      show (if i' = i' then _ else x i') = _
      rw [if_pos rfl]
    · have hmL : n₀ ∈ L := by
        rcases List.mem_cons.1 hm with h | h
        · exact absurd h.symm hn
        · exact h
      exact ih _ (List.nodup_cons.1 hnd).2 hmL (fun m hmm => huniq m (List.mem_cons_of_mem _ hmm))

/-- A scatter whose body returns the update, read at a position no update lands on: the operand there. -/
theorem scatter_set_of_not_hit (d : ScatterDims s si u) (x : s.Idx → α) (idx : IVec si w) (upd : u.Idx → α) (i' : s.Idx)
    (h : ∀ j : u.Idx, d.resultIdx? j idx ≠ some i') : Host.scatter d (fun _ b => b) x idx upd i' = x i' := by
  unfold Host.scatter
  exact fold_not_hit d (fun _ b => b) idx upd i' _ x (fun n _ => h _)

/-- A scatter whose body returns the update, read at a position exactly one update lands on: that update. (With one
    update per position the order in which the updates are applied does not matter.) -/
theorem scatter_set_of_hit (d : ScatterDims s si u) (x : s.Idx → α) (idx : IVec si w) (upd : u.Idx → α) (i' : s.Idx)
    (j₀ : u.Idx) (h0 : d.resultIdx? j₀ idx = some i') (huniq : ∀ j : u.Idx, d.resultIdx? j idx = some i' → j = j₀) :
    Host.scatter d (fun _ b => b) x idx upd i' = upd j₀ := by
  unfold Host.scatter
  have e : u.rowMajor.symm (u.rowMajor j₀) = j₀ := u.rowMajor.symm_apply_apply j₀
  rw [← e]
  refine fold_hit d idx upd i' (u.rowMajor j₀) (by rw [e]; exact h0) _ x (List.nodup_finRange _) (List.mem_finRange _) ?_
  intro n _ hn
  have := huniq _ hn
  rw [← this]
  exact (u.rowMajor.apply_symm_apply n).symm

end Cert.ScatterAt

end
-- ==== Proof.RefValue.lean ====
/-
  The reference's value, read at the ideal instance, is the specification's negated mean.

  The composed term of the reference is read entry by entry. The logits: a scalar broadcast reads the scalar, the
  product of A with the transpose of B at (i, j) is Σ_k A(i,k) · B(j,k). The table of diagonal positions: the counter
  k is never negative as a signed 32-bit word, so both wrapped coordinates are k and row k holds (k, k). The signs:
  update k of the overwriting scatter lands exactly on (k, k), so a diagonal position receives exactly one update,
  2 · lab k − 1, and every other position keeps the constant −1. softplus: x − 0 is x and a number always equals
  itself, so the guarded branch is never taken and what is left is max x 0 + log (1 + exp (−|x|)). Hence the entry
  (i, j) of log_sigmoid of the signed logits is minus the pair's loss, the sum over all entries from 0 is
  0 + Σ −loss, and dividing by 2²⁶ and negating gives the specification's form.
-/
import proofs.«149174_j90159953478072_1_alg».proof.Proof.Spec
import proofs.«149174_j90159953478072_1_alg».proof.Proof.RefTerm
import proofs.«149174_j90159953478072_1_alg».proof.Proof.LibScatterAt
import Idealize.ShloMosaic.Lib.Pipeline.Value
import Idealize.ShloMosaic.Lib.ValueLayout

noncomputable section

namespace Cert.ReferenceIdeal.RefValue

open Cert.ReferenceIdeal Cert.ReferenceIdeal.HandRun Idealize.ShloMosaic Idealize.ShloMosaic.ValueIdx Cert.ProductAt

variable [Facts]
open Facts₀ Facts

/-! ## The logits -/

/-- The row coordinate of the left factor's index is the result's row. -/
theorem dot_lhs0 (j : S8192x8192.Idx) (q : dot_S8192x256_S256x8192_S8192x8192_1_0_0_1_n_n.contr.Idx) :
    (dot_S8192x256_S256x8192_S8192x8192_1_0_0_1_n_n.lhsIdx j q 0).val = (j 0).val := by
  unfold DotDims.lhsIdx
  have h1 : (0 : Fin S8192x256.rank) ∉ dot_S8192x256_S256x8192_S8192x8192_1_0_0_1_n_n.lhsBatch := List.not_mem_nil
  have h2 : (0 : Fin S8192x256.rank) ∈ dot_S8192x256_S256x8192_S8192x8192_1_0_0_1_n_n.lhsNonContracting := List.mem_singleton.2 rfl
  rw [dif_neg h1, dif_pos h2]
  rfl

/-- The column coordinate of the right factor's index is the result's column. -/
theorem dot_rhs1 (j : S8192x8192.Idx) (q : dot_S8192x256_S256x8192_S8192x8192_1_0_0_1_n_n.contr.Idx) :
    (dot_S8192x256_S256x8192_S8192x8192_1_0_0_1_n_n.rhsIdx j q 1).val = (j 1).val := by
  unfold DotDims.rhsIdx
  have h1 : (1 : Fin S256x8192.rank) ∉ dot_S8192x256_S256x8192_S8192x8192_1_0_0_1_n_n.rhsBatch := List.not_mem_nil
  have h2 : (1 : Fin S256x8192.rank) ∈ dot_S8192x256_S256x8192_S8192x8192_1_0_0_1_n_n.rhsNonContracting := List.mem_singleton.2 rfl
  rw [dif_neg h1, dif_pos h2]
  rfl

/-- A scalar broadcast to the square reads the scalar everywhere. -/
theorem bcast_sq_apply {α : Type} (x : S_.Idx → α) (q : S8192x8192.Idx) :
    broadcastInDim S8192x8192 ![] bcast_S_S8192x8192 x q = x ix0 :=
  broadcastInDim_apply _ _ x q ix0 fun a => a.elim0

/-- A scalar broadcast to a vector reads the scalar everywhere. -/
theorem bcast_vec_apply {α : Type} (x : S_.Idx → α) (q : S8192.Idx) :
    broadcastInDim S8192 ![] bcast_S_S8192 x q = x ix0 :=
  broadcastInDim_apply _ _ x q ix0 fun a => a.elim0

/-- The logits at (i, j): s · Σ_k A(i,k) · B(j,k) + b. -/
theorem logits_apply (A B : Spec.SF.Idx → EReal) (s b : Spec.SSc.Idx → EReal) (i j : Nat) (hi : i < 8192) (hj : j < 8192) :
    logits (F := Ideal) A B s b (at2 i hi j hj) = Spec.logit A B s b i j hi hj := by
  show broadcastInDim S8192x8192 ![] bcast_S_S8192x8192 s (at2 i hi j hj)
      * FloatOps.dotGeneral (F := Ideal) dot_S8192x256_S256x8192_S8192x8192_1_0_0_1_n_n none .single A
          (transpose S256x8192 [1, 0] B transposes_S8192x256_S256x8192_1_0) (at2 i hi j hj)
      + broadcastInDim S8192x8192 ![] bcast_S_S8192x8192 b (at2 i hi j hj) = _
  rw [bcast_sq_apply, bcast_sq_apply, Ideal.dotGeneral_apply]
  rw [product_sum_eq dot_S8192x256_S256x8192_S8192x8192_1_0_0_1_n_n rfl rfl rfl rfl dot_lhs0 dot_rhs1]
  unfold Spec.logit
  refine congrArg (fun t => s ix0 * t + b ix0) (Finset.sum_congr rfl fun k _ => ?_)
  refine congrArg (fun t => A (at2 i hi k.val k.isLt) * t) ?_
  exact transpose_ix2_apply B transposes_S8192x256_S256x8192_1_0 ⟨k.val, k.isLt⟩ ⟨j, hj⟩

/-! ## The table of diagonal positions -/

/-- A number below 8192, as a 32-bit word read signed, is itself. -/
theorem toInt_ofNat_small (k : Nat) (hk : k < 8192) : (BitVec.ofNat 32 k).toInt = (k : Int) := by
  rw [BitVec.toInt_eq_toNat_cond, BitVec.toNat_ofNat, Nat.mod_eq_of_lt (by omega)]
  rw [if_pos (by omega)]

/-- The counter k is not negative as a signed word, so the wrapped coordinate is the counter itself. -/
theorem diagCoord_apply (k : Fin 8192) : diagCoord (F := Ideal) (ix1 k) = BitVec.ofNat 32 k.val := by
  show Scalar.select (IntOp.cmpi .slt (BitVec.ofNat 32 k.val) (broadcastInDim S8192 ![] bcast_S_S8192 (constantI S_ 32 0#32) (ix1 k)))
      (IntOp.addi (BitVec.ofNat 32 k.val) (broadcastInDim S8192 ![] bcast_S_S8192 (constantI S_ 32 8192#32) (ix1 k)))
      (BitVec.ofNat 32 k.val) = _
  rw [bcast_vec_apply, bcast_vec_apply]
  have hc : IntOp.cmpi .slt (BitVec.ofNat 32 k.val) (constantI S_ 32 0#32 ix0) = 0#1 := by
    show BitVec.ofBool ((BitVec.ofNat 32 k.val).slt 0#32) = 0#1
    have : (BitVec.ofNat 32 k.val).slt 0#32 = false := by
      rw [BitVec.slt, toInt_ofNat_small _ k.isLt]
      simp
    rw [this]; rfl
  rw [hc]
  rfl

/-- Row k of the table holds (k, k): both columns are the counter. -/
theorem diagTable_apply (q : S8192x2.Idx) : diagTable (F := Ideal) q = BitVec.ofNat 32 (q 0).val := by
  unfold diagTable
  have hb : broadcastInDim S8192x1 ![0] bcast_S8192_S8192x1_0 (diagCoord (F := Ideal)) (ix2 (q 0) (⟨0, by decide⟩ : Fin 1))
      = BitVec.ofNat 32 (q 0).val := by
    rw [broadcastInDim_apply ![0] bcast_S8192_S8192x1_0 (diagCoord (F := Ideal)) _ (ix1 (q 0))
      (fun a => match a with | ⟨0, _⟩ => rfl)]
    exact diagCoord_apply (q 0)
  by_cases h : (q 1).val < 1
  · rw [concatenate_pair_apply_left 1 _ _ concatenates_S8192x1_S8192x1_S8192x2_d1 q rfl (ix2 (q 0) (⟨0, by decide⟩ : Fin 1))
      (fun b => match b with
        | ⟨0, _⟩ => rfl
        | ⟨1, _⟩ => by show 0 = (q 1).val; omega)]
    exact hb
  · have h2 : (q 1).val < 2 := (q 1).isLt
    rw [concatenate_pair_apply_right 1 _ _ concatenates_S8192x1_S8192x1_S8192x2_d1 q rfl rfl (ix2 (q 0) (⟨0, by decide⟩ : Fin 1))
      (fun b => match b with
        | ⟨0, _⟩ => fun _ => rfl
        | ⟨1, _⟩ => fun hne => absurd rfl hne)
      (by show 0 + 1 = (q 1).val; omega)]
    exact hb

/-! ## The signs -/

/-- Update k reads its start index off row k of the table. -/
theorem siIdx_row (j : S8192.Idx) (c : Fin scatter_S8192x8192_S8192x2_S8192_n_01_01_1.scatterDimsToOperandDims.length) :
    ((scatter_S8192x8192_S8192x2_S8192_n_01_01_1.siIdx j c) 0).val = (j 0).val := rfl

/-- Update k starts at k on both axes of the square … -/
theorem start_eq (j : S8192.Idx) (a : Fin 2) :
    scatter_S8192x8192_S8192x2_S8192_n_01_01_1.start j (diagTable (F := Ideal)) a = ((j 0).val : Int) := by
  unfold ScatterDims.start
  have ha : a ∈ scatter_S8192x8192_S8192x2_S8192_n_01_01_1.scatterDimsToOperandDims :=
    match a with
    | ⟨0, _⟩ => (show (0 : Fin 2) ∈ ([0, 1] : List (Fin 2)) by decide)
    | ⟨1, _⟩ => (show (1 : Fin 2) ∈ ([0, 1] : List (Fin 2)) by decide)
  rw [dif_pos ha, diagTable_apply, siIdx_row, toInt_ofNat_small _ (j 0).isLt]

/-- … and its window is the single entry there. -/
theorem window_eq (j : S8192.Idx) (a : Fin 2) : scatter_S8192x8192_S8192x2_S8192_n_01_01_1.window j a = 0 := by
  unfold ScatterDims.window
  have ha : a ∉ scatter_S8192x8192_S8192x2_S8192_n_01_01_1.sKept :=
    match a with
    | ⟨0, _⟩ => (show (0 : Fin 2) ∉ S8192x8192.kept ([0, 1] : List (Fin 2)) by decide)
    | ⟨1, _⟩ => (show (1 : Fin 2) ∉ S8192x8192.kept ([0, 1] : List (Fin 2)) by decide)
  rw [dif_neg ha]

/-- So update k lands on the diagonal position (k, k). -/
theorem resultIdx_eq (j : S8192.Idx) :
    scatter_S8192x8192_S8192x2_S8192_n_01_01_1.resultIdx? j (diagTable (F := Ideal)) = some (ix2 (j 0) (j 0)) := by
  unfold ScatterDims.resultIdx?
  have hj : (j 0).val < 8192 := (j 0).isLt
  have H : ∀ a, 0 ≤ scatter_S8192x8192_S8192x2_S8192_n_01_01_1.start j (diagTable (F := Ideal)) a
        + scatter_S8192x8192_S8192x2_S8192_n_01_01_1.window j a
      ∧ scatter_S8192x8192_S8192x2_S8192_n_01_01_1.start j (diagTable (F := Ideal)) a
        + scatter_S8192x8192_S8192x2_S8192_n_01_01_1.window j a < S8192x8192.size a := by
    intro a
    rw [start_eq, window_eq]
    match a with
    | ⟨0, _⟩ => exact ⟨by omega, by show ((j 0).val : Int) + ((0 : Nat) : Int) < ((8192 : Nat) : Int); omega⟩
    | ⟨1, _⟩ => exact ⟨by omega, by show ((j 0).val : Int) + ((0 : Nat) : Int) < ((8192 : Nat) : Int); omega⟩
  rw [dif_pos H]
  refine congrArg some (funext fun a => Fin.ext ?_)
  show (scatter_S8192x8192_S8192x2_S8192_n_01_01_1.start j (diagTable (F := Ideal)) a
      + scatter_S8192x8192_S8192x2_S8192_n_01_01_1.window j a).toNat = (ix2 (j 0) (j 0) a).val
  rw [start_eq, window_eq]
  match a with
  | ⟨0, _⟩ => show (((j 0).val : Int) + ((0 : Nat) : Int)).toNat = (j 0).val; omega
  | ⟨1, _⟩ => show (((j 0).val : Int) + ((0 : Nat) : Int)).toNat = (j 0).val; omega

/-- The diagonal's signs at k: 2 · lab k − 1. -/
theorem diagSigns_apply (lab : Spec.SLab.Idx → EReal) (k : Fin 8192) :
    diagSigns (F := Ideal) lab (ix1 k)
      = Ideal.ofBits .f32 0x40000000#32 * lab (ix1 k) - Ideal.ofBits .f32 0x3F800000#32 := by
  show broadcastInDim S8192 ![] bcast_S_S8192 (constant (F := Ideal) S_ .f32 0x40000000#32) (ix1 k) * lab (ix1 k)
      - broadcastInDim S8192 ![] bcast_S_S8192 (constant (F := Ideal) S_ .f32 0x3F800000#32) (ix1 k) = _
  rw [bcast_vec_apply, bcast_vec_apply]
  rfl

/-- The signs at (i, j): 2 · lab i − 1 on the diagonal, −1 off it. Each diagonal position receives exactly one
    update, and no other position receives any. -/
theorem signs_apply (lab : Spec.SLab.Idx → EReal) (i j : Nat) (hi : i < 8192) (hj : j < 8192) :
    signs (F := Ideal) lab (at2 i hi j hj) = Spec.sign lab i j hi := by
  unfold signs Spec.sign
  by_cases h : i = j
  · subst h
    rw [if_pos rfl]
    rw [Cert.ScatterAt.scatter_set_of_hit scatter_S8192x8192_S8192x2_S8192_n_01_01_1 _ _ _ (at2 i hi i hj) (ix1 ⟨i, hi⟩)
      (resultIdx_eq _) (fun j' hj' => by
        rw [resultIdx_eq] at hj'
        have e := congrArg (fun q : S8192x8192.Idx => (q 0).val) (Option.some.inj hj')
        rw [eq_ix1 j']
        exact congrArg ix1 (Fin.ext e))]
    exact diagSigns_apply lab ⟨i, hi⟩
  · rw [if_neg h]
    rw [Cert.ScatterAt.scatter_set_of_not_hit scatter_S8192x8192_S8192x2_S8192_n_01_01_1 _ _ _ (at2 i hi j hj) (fun j' hj' => by
        rw [resultIdx_eq] at hj'
        have e0 := congrArg (fun q : S8192x8192.Idx => (q 0).val) (Option.some.inj hj')
        have e1 := congrArg (fun q : S8192x8192.Idx => (q 1).val) (Option.some.inj hj')
        exact h (e0.symm.trans e1))]
    rw [bcast_sq_apply]
    rfl

/-! ## softplus, log_sigmoid, the mean -/

/-- The program's softplus is the specification's: x − 0 is x, a number always equals itself, so the guard never
    fires. -/
theorem softplusT_apply (x : S8192x8192.Idx → EReal) (q : S8192x8192.Idx) :
    softplusT (F := Ideal) x q = Spec.softplus (x q) := by
  have hz : zeros (F := Ideal) q = 0 := by
    unfold zeros
    rw [bcast_sq_apply]
    exact Ideal.ofBits_zero_f32
  show Scalar.select (Ideal.cmp .une (x q - zeros (F := Ideal) q) (x q - zeros (F := Ideal) q)) (x q + zeros (F := Ideal) q)
      (max (x q) (zeros (F := Ideal) q)
        + Ideal.log1p (Ideal.exp (-(max (x q - zeros (F := Ideal) q) (-(x q - zeros (F := Ideal) q)))))) = _
  rw [hz, sub_zero]
  have hc : Ideal.cmp .une (x q) (x q) = 0#1 := by
    show BitVec.ofBool (decide (x q ≠ x q)) = 0#1
    rw [decide_eq_false (fun hne => hne rfl)]
    rfl
  rw [hc, select_zero]
  rfl

/-- The host's negation of an array, at an entry. -/
theorem hostNegf_apply {S : Shape} (Y : FVec Ideal S .f32) (q : S.Idx) : Host.negf (F := Ideal) Y q = -(Y q) := rfl

/-- log_sigmoid of the signed logit at (i, j) is minus the pair's loss. -/
theorem logSig_apply (A B : Spec.SF.Idx → EReal) (lab : Spec.SLab.Idx → EReal) (s b : Spec.SSc.Idx → EReal)
    (i j : Nat) (hi : i < 8192) (hj : j < 8192) :
    logSig (F := Ideal) A B lab s b (at2 i hi j hj) = -(Spec.lossAt A B lab s b i j) := by
  unfold logSig
  rw [hostNegf_apply, softplusT_apply, hostNegf_apply, mulf_apply, signs_apply, logits_apply,
    Spec.lossAt_eq A B lab s b i j hi hj]

/-- THE READING: the composed term is the negated mean of the negated losses. -/
theorem out_eq_negMeanForm (A B : Spec.SF.Idx → EReal) (lab : Spec.SLab.Idx → EReal) (s b : Spec.SSc.Idx → EReal) :
    out (F := Ideal) A B lab s b = Spec.negMeanForm A B lab s b := by
  funext q
  show -(Ideal.div (Ideal.hostReduceAdd reducesTo_S8192x8192_S_d0_1 (logSig (F := Ideal) A B lab s b)
      (constant (F := Ideal) S_ .f32 0x00000000#32 (Shape.Idx.first h_S_)) q) (constant (F := Ideal) S_ .f32 0x4C800000#32 q)) = _
  rw [Ideal.hostReduceAdd_total reducesTo_S8192x8192_S_d0_1 (fun b => b.elim0)]
  unfold Spec.negMeanForm
  refine congrArg (fun t => -(Ideal.div (Ideal.ofBits .f32 0x00000000#32 + t) (Ideal.ofBits .f32 0x4C800000#32)))
    (Finset.sum_congr rfl fun ij _ => ?_)
  exact (congrArg (logSig (F := Ideal) A B lab s b) (eq_at2 ij)).trans
    (logSig_apply A B lab s b (ij 0).val (ij 1).val (idx2_lt0 ij) (idx2_lt1 ij))

end Cert.ReferenceIdeal.RefValue

end
-- ==== Proof.RefResult.lean ====
/-
  The reference's run and its reading, joined.

  Every weakly fair execution of the reference terminates with the result buffer at the composed term of the five
  arguments and the arguments unchanged; at the ideal instance that term is the negated mean of the negated losses.
-/
import proofs.«149174_j90159953478072_1_alg».proof.Proof.RefRun
import proofs.«149174_j90159953478072_1_alg».proof.Proof.RefValue

noncomputable section

namespace Cert.ReferenceIdeal.RefValue

open Cert.ReferenceIdeal Idealize.ShloMosaic Idealize.ShloMosaic.TcCoe Idealize.SL.Sem

/-- At the ideal instance, from any memory with zero counters: every weakly fair execution of the reference's @main
    terminates with the result the specification's negated mean of the negated losses of the five arguments, and the
    arguments unchanged. -/
theorem run_result [Cert.ReferenceIdeal.Facts] (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v30)
        = Cert.Spec.negMeanForm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.ReferenceIdeal.defs (F := Ideal)) _ _).mono
    (fun _ h c => ⟨(h c).1.trans (out_eq_negMeanForm _ _ _ _ _), (h c).2⟩)
    (HandRun.run m ρ)

end Cert.ReferenceIdeal.RefValue

end
-- ==== Proof.lean ====
/-
  The certificate of the sigmoid contrastive loss with diagonal ground truth: a tiled kernel against its jnp reference.

  Both programs compute, over the extended reals, the mean over the 8192² pairs (i, j) of
  softplus (−(sign(i,j) · (s · ⟨A i, B j⟩ + b))), with sign(i,j) = 2 · lab(i) − 1 on the diagonal and −1 off it
  (Spec.lean). The kernel walks a 4 × 16 grid of 2048 × 512 tiles, adds each tile's sum of losses to a one-element
  accumulator and, after the last tile, writes the accumulator times 2⁻²⁶ (KValue.lean: the accumulator by induction
  over the grid points, the tiles partitioning the square). The reference forms the whole 8192 × 8192 matrix of
  log_sigmoid values, sums it, divides by 2²⁶ and negates (RefResult.lean). The two arrangements agree because every
  loss is non-negative, so negation commutes with the sums, and division by 2²⁶ is multiplication by 2⁻²⁶
  (Algebra.lean). No finiteness of the inputs is needed for that. The kernel's idealization rewrote nothing, so
  the preservation claim is trivial; the kernels' frames are the generated ones, the reference's frame its run.
-/
import proofs.«149174_j90159953478072_1_alg».proof.Defs
import proofs.«149174_j90159953478072_1_alg».proof.Proof.Gen.Kernel
import proofs.«149174_j90159953478072_1_alg».proof.Proof.Gen.Kernel.Skeleton
import proofs.«149174_j90159953478072_1_alg».proof.Proof.Gen.Kernel.Launch
import proofs.«149174_j90159953478072_1_alg».proof.Proof.Gen.Kernel.Points
import proofs.«149174_j90159953478072_1_alg».proof.Proof.Gen.Kernel.Frame
import proofs.«149174_j90159953478072_1_alg».proof.Proof.Gen.KernelIdeal
import proofs.«149174_j90159953478072_1_alg».proof.Proof.Gen.KernelIdeal.Skeleton
import proofs.«149174_j90159953478072_1_alg».proof.Proof.Gen.KernelIdeal.Launch
import proofs.«149174_j90159953478072_1_alg».proof.Proof.Gen.KernelIdeal.Points
import proofs.«149174_j90159953478072_1_alg».proof.Proof.Gen.KernelIdeal.Frame
import proofs.«149174_j90159953478072_1_alg».proof.Proof.Gen.ReferenceIdeal
import proofs.«149174_j90159953478072_1_alg».proof.Proof.Gen.Pre_finite_inputs
import proofs.«149174_j90159953478072_1_alg».proof.Proof.KValue
import proofs.«149174_j90159953478072_1_alg».proof.Proof.RefResult
import proofs.«149174_j90159953478072_1_alg».proof.Proof.Algebra
import Idealize.ShloMosaic.Adequacy
import Idealize.ShloMosaic.Init

noncomputable section

namespace Cert.Proof

open Idealize.ShloMosaic Idealize.SL.Sem

/-- The word-level kernel's frame and the idealized kernel's: the generated frame runs. -/
theorem frame_k : Cert.frame_Kernel := fun m ρ _ => Cert.Kernel.Gen.frame m ρ
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run_result m ρ)

/-- The idealization rewrote nothing. -/
theorem preserves : Cert.preserves_Kernel_KernelIdeal := trivial

/-- Both runs end at the specification's mean loss of arguments that agree: the kernel's directly, the reference's
    in the negated-mean form, which is the same extended real. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run_result m' ρ')
  rw [(hagree c).1, (hagree c).2.1, (hagree c).2.2.1, (hagree c).2.2.2.1, (hagree c).2.2.2.2]
  exact Cert.Algebra.negMeanForm_eq_result _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
